-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v43_0)) (v1 : (c : Dev Cert.KernelIdeal.nD) → Buf (Elt Ideal) ((c.tc : Thread Cert.KernelIdeal.nD Cert.KernelIdeal.τ).loc Cert.KernelIdeal.main_v43_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43_0) = v0 c
          ∧ r.2.mem ((c.tc : Thread Cert.KernelIdeal.nD Cert.KernelIdeal.τ).loc Cert.KernelIdeal.main_v43_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S64x1 .f32) (main_arg13 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg12
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S64x128 .f32) (main_arg9 : FVec F S128 .f32) (main_arg10 : FVec F S128x64 .f32) (main_arg11 : FVec F S64 .f32) (main_arg12 : FVec F S64x1 .f32) (main_arg13 : FVec F S1 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_v48 main_v49 main_v50

def fn_part1 {F : FTy → Type} [FloatOps F] (main_arg5 : FVec F S128x64 .f32) (main_arg6 : FVec F S64 .f32) (main_arg7 : FVec F S128x64 .f32) (main_arg8 : FVec F S64x128 .f32) (main_arg9 : FVec F S128 .f32) (main_arg10 : FVec F S128x64 .f32) (main_arg11 : FVec F S64 .f32) (main_arg12 : FVec F S64x1 .f32) (main_arg13 : FVec F S1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x64 .f32) (main_arg1 : IVec S2x1600000 32) (main_arg2 : FVec F S64x128 .f32) (main_arg3 : FVec F S128 .f32) (main_arg4 : FVec F S64x128 .f32) (main_arg5 : FVec F S128x64 .f32) (main_arg6 : FVec F S64 .f32) (main_arg7 : FVec F S128x64 .f32) (main_arg8 : FVec F S64x128 .f32) (main_arg9 : FVec F S128 .f32) (main_arg10 : FVec F S128x64 .f32) (main_arg11 : FVec F S64 .f32) (main_arg12 : FVec F S64x1 .f32) (main_arg13 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_arg8 main_arg9 main_arg10 main_arg11 main_arg12 main_arg13 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x128 : Shape := ⟨2, ![1, 128]⟩
abbrev S100000x128 : Shape := ⟨2, ![100000, 128]⟩
abbrev S4000x64 : Shape := ⟨2, ![4000, 64]⟩
abbrev S4000x128 : Shape := ⟨2, ![4000, 128]⟩
abbrev S1x64 : Shape := ⟨2, ![1, 64]⟩
abbrev S1x1 : Shape := ⟨2, ![1, 1]⟩
abbrev S4000x1 : Shape := ⟨2, ![4000, 1]⟩

abbrev nBuf : Space → Nat
  | .hbm => 70
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S64x1, .f32⟩
  | .hbm, ⟨13, _⟩ => ⟨S1, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S_, .f32⟩
  | .hbm, ⟨41, _⟩ => ⟨S100000x64, .f32⟩
  | .hbm, ⟨42, _⟩ => ⟨S1600000x1, .i32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S1x128, .f32⟩
  | .hbm, ⟨47, _⟩ => ⟨S100000x128, .f32⟩
  | .hbm, ⟨48, _⟩ => ⟨S100000x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S100000x64, .f32⟩
  | .hbm, ⟨63, _⟩ => ⟨S100000x64, .f32⟩
  | .hbm, ⟨64, _⟩ => ⟨S1x64, .f32⟩
  | .hbm, ⟨65, _⟩ => ⟨S1x128, .f32⟩
  | .hbm, ⟨66, _⟩ => ⟨S1x64, .f32⟩
  | .hbm, ⟨67, _⟩ => ⟨S1x1, .f32⟩
  | .hbm, ⟨68, _⟩ => ⟨S100000x64, .f32⟩
  | .hbm, ⟨69, _⟩ => ⟨S100000x1, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S128x64, .f32⟩
  | .local _ .vmem, ⟨8, _⟩ => ⟨S4000x128, .f32⟩
  | .local _ .vmem, ⟨9, _⟩ => ⟨S4000x128, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x64, .f32⟩
  | .local _ .vmem, ⟨14, _⟩ => ⟨S4000x128, .f32⟩
  | .local _ .vmem, ⟨15, _⟩ => ⟨S4000x128, .f32⟩
  | .local _ .vmem, ⟨16, _⟩ => ⟨S128x64, .f32⟩
  | .local _ .vmem, ⟨17, _⟩ => ⟨S1x64, .f32⟩
  | .local _ .vmem, ⟨18, _⟩ => ⟨S64x128, .f32⟩
  | .local _ .vmem, ⟨19, _⟩ => ⟨S1x128, .f32⟩
  | .local _ .vmem, ⟨20, _⟩ => ⟨S128x64, .f32⟩
  | .local _ .vmem, ⟨21, _⟩ => ⟨S1x64, .f32⟩
  | .local _ .vmem, ⟨22, _⟩ => ⟨S64x1, .f32⟩
  | .local _ .vmem, ⟨23, _⟩ => ⟨S1x1, .f32⟩
  | .local _ .vmem, ⟨24, _⟩ => ⟨S4000x64, .f32⟩
  | .local _ .vmem, ⟨25, _⟩ => ⟨S4000x64, .f32⟩
  | .local _ .vmem, ⟨26, _⟩ => ⟨S4000x1, .f32⟩
  | .local _ .vmem, ⟨27, _⟩ => ⟨S4000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26_0 : Ref sig .tc := ⟨.hbm, 47, rfl⟩
abbrev main_v26_1 : Ref sig .tc := ⟨.hbm, 48, rfl⟩
abbrev main_c_5 : Ref sig .tc := ⟨.hbm, 49, rfl⟩
abbrev main_v27 : Ref sig .tc := ⟨.hbm, 50, rfl⟩
abbrev main_v28 : Ref sig .tc := ⟨.hbm, 51, rfl⟩
abbrev main_c_6 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43_0 : Ref sig .tc := ⟨.hbm, 68, rfl⟩
abbrev main_v43_1 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg10_1 : Ref sig .tc := ⟨.vmem, 25, rfl⟩
abbrev cc1_stg11_0 : Ref sig .tc := ⟨.vmem, 26, rfl⟩
abbrev cc1_stg11_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem10_1 : DmaSem sig := 25
abbrev cc1_sem11_0 : DmaSem sig := 26
abbrev cc1_sem11_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S4000x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S4000x1 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S128_S1x128 : S128.ShapeCasts S1x128
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  inb_S128x64_S128x64_0_0 : ∀ a, (![0, 0] : Fin 2 → Nat) a + S128x64.size a ≤ S128x64.size a
  h_S128x64 : 0 < S128x64.numel
  shapeCasts_S64_S1x64 : S64.ShapeCasts S1x64
  shapeCasts_S1_S1x1 : S1.ShapeCasts S1x1
  shapeCasts_S4000x128_S4000x128 : S4000x128.ShapeCasts S4000x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x128_S4000x128_1_0_0_1_n_n_wf : DotDims.WF S4000x64 S64x128 S4000x128 [1] [0] [0] [1] [] []
  dot_S4000x128_S128x64_S4000x64_1_0_0_1_n_n_wf : DotDims.WF S4000x128 S128x64 S4000x64 [1] [0] [0] [1] [] []
  dot_S4000x64_S64x1_S4000x1_1_0_0_1_n_n_wf : DotDims.WF S4000x64 S64x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x64.size a ≤ S100000x64.size a
  hwx0_7 : ∀ i : grid0.Coords, EltTy.bits .f32 = 32 ∨ (Rect.block (s := S100000x64) S4000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x64.size a ≤ S128x64.size a
  hwx1_6 : ∀ i : grid1.Coords, EltTy.bits .f32 = 32 ∨ (Rect.block (s := S128x64) S128x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x1.size a ≤ S64x1.size a
  hwx1_8 : ∀ i : grid1.Coords, EltTy.bits .f32 = 32 ∨ (Rect.block (s := S64x1) S64x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1.size a ≤ S1x1.size a
  hwx1_9 : ∀ i : grid1.Coords, EltTy.bits .f32 = 32 ∨ (Rect.block (s := S1x1) S1x1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S4000x64.size a ≤ S100000x64.size a
  hwx1_10 : ∀ i : grid1.Coords, EltTy.bits .f32 = 32 ∨ (Rect.block (s := S100000x64) S4000x64.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S4000x1.size a ≤ S100000x1.size a
  hwx1_11 : ∀ i : grid1.Coords, EltTy.bits .f32 = 32 ∨ (Rect.block (s := S100000x1) S4000x1.size (cc1_transform_11 i) (hinb1_11 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf

abbrev win0_0 : Pipeline.Window sig grid0 :=
  Pipeline.Window.ofSpec (Memref.whole main_v24) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26_0) S4000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v26_1) S4000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v38) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26_0) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S128x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v41) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg12) S64x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v42) S1x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v43_0) S4000x64.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v43_1) S4000x1.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S1x64 : Shape := ⟨2, ![1, 64]⟩
abbrev S1x1 : Shape := ⟨2, ![1, 1]⟩

abbrev nBuf : Space → Nat
  | .hbm => 109
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S64x1, .f32⟩
  | .hbm, ⟨13, _⟩ => ⟨S1, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S_, .f32⟩
  | .hbm, ⟨28, _⟩ => ⟨S100000x64, .f32⟩
  | .hbm, ⟨29, _⟩ => ⟨S1600000x1, .i32⟩
  | .hbm, ⟨30, _⟩ => ⟨S100000x64, .f32⟩
  | .hbm, ⟨31, _⟩ => ⟨S_, .f32⟩
  | .hbm, ⟨32, _⟩ => ⟨S1600000, .f32⟩
  | .hbm, ⟨33, _⟩ => ⟨S_, .f32⟩
  | .hbm, ⟨34, _⟩ => ⟨S100000, .f32⟩
  | .hbm, ⟨35, _⟩ => ⟨S1600000x1, .i32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S100000x64, .f32⟩
  | .hbm, ⟨42, _⟩ => ⟨S100000x64, .f32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S100000x128, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S_, .f32⟩
  | .hbm, ⟨66, _⟩ => ⟨S1600000, .f32⟩
  | .hbm, ⟨67, _⟩ => ⟨S_, .f32⟩
  | .hbm, ⟨68, _⟩ => ⟨S100000, .f32⟩
  | .hbm, ⟨69, _⟩ => ⟨S1600000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | .hbm, ⟨81, _⟩ => ⟨S100000x64, .f32⟩
  | .hbm, ⟨82, _⟩ => ⟨S100000x64, .f32⟩
  | .hbm, ⟨83, _⟩ => ⟨S100000x128, .f32⟩
  | .hbm, ⟨84, _⟩ => ⟨S1x128, .f32⟩
  | .hbm, ⟨85, _⟩ => ⟨S100000x128, .f32⟩
  | .hbm, ⟨86, _⟩ => ⟨S100000x128, .f32⟩
  | .hbm, ⟨87, _⟩ => ⟨S_, .f32⟩
  | .hbm, ⟨88, _⟩ => ⟨S100000x128, .f32⟩
  | .hbm, ⟨89, _⟩ => ⟨S100000x128, .f32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | .hbm, ⟨94, _⟩ => ⟨S_, .f32⟩
  | .hbm, ⟨95, _⟩ => ⟨S100000x64, .f32⟩
  | .hbm, ⟨96, _⟩ => ⟨S100000x64, .f32⟩
  | .hbm, ⟨97, _⟩ => ⟨S100000x1, .f32⟩
  | .hbm, ⟨98, _⟩ => ⟨S1x1, .f32⟩
  | .hbm, ⟨99, _⟩ => ⟨S100000x1, .f32⟩
  | .hbm, ⟨100, _⟩ => ⟨S100000x1, .f32⟩
  | .hbm, ⟨101, _⟩ => ⟨S100000x1, .f32⟩
  | .hbm, ⟨102, _⟩ => ⟨S100000x1, .f32⟩
  | .hbm, ⟨103, _⟩ => ⟨S_, .f32⟩
  | .hbm, ⟨104, _⟩ => ⟨S100000x1, .f32⟩
  | .hbm, ⟨105, _⟩ => ⟨S100000x1, .f32⟩
  | .hbm, ⟨106, _⟩ => ⟨S_, .f32⟩
  | .hbm, ⟨107, _⟩ => ⟨S100000x1, .f32⟩
  | .hbm, ⟨108, _⟩ => ⟨S100000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call0_cst : Ref sig .tc := ⟨.hbm, 49, rfl⟩
abbrev main_call0_v0 : Ref sig .tc := ⟨.hbm, 50, rfl⟩
abbrev main_v29 : Ref sig .tc := ⟨.hbm, 51, rfl⟩
abbrev main_c_4 : Ref sig .tc := ⟨.hbm, 52, rfl⟩
abbrev main_v30 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_9 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_call1_cst : Ref sig .tc := ⟨.hbm, 87, rfl⟩
abbrev main_call1_v0 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_call2_cst : Ref sig .tc := ⟨.hbm, 94, rfl⟩
abbrev main_call2_v0 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_10 : Ref sig .tc := ⟨.hbm, 103, rfl⟩
abbrev main_v71 : Ref sig .tc := ⟨.hbm, 104, rfl⟩
abbrev main_v72 : Ref sig .tc := ⟨.hbm, 105, rfl⟩
abbrev main_cst_11 : Ref sig .tc := ⟨.hbm, 106, rfl⟩
abbrev main_v73 : Ref sig .tc := ⟨.hbm, 107, rfl⟩
abbrev main_v74 : Ref sig .tc := ⟨.hbm, 108, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  dot_S100000x64_S64x1_S100000x1_1_0_0_1_n_n_wf : DotDims.WF S100000x64 S64x1 S100000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.LibRealLaw.lean ====
/- The real-number law behind a linear cross-attention, stated over the extended reals.

   At the ideal reading a float is an extended real.  Two programs compute, from real inputs
   `l e`, `g m e`, `v m`,

     reference:  ∑ m, ((∑ e, l e * g m e) / 1024) * v m
     kernel:     ∑ e, l e * ((∑ m, g m e * v m) * (1/1024))

   Over the reals these agree: distribute the constant and exchange the two finite sums.  Over the
   extended reals multiplication does not distribute over addition in general (`⊤ + ⊥`, `0 * ⊤`),
   so the law is stated for extended reals that are known to be (coercions of) real numbers, and
   proved by pulling the coercion `ℝ → EReal` outside every product and finite sum. -/
import Idealize.ShloMosaic.PureOps.Ideal

noncomputable section

open Idealize.ShloMosaic

namespace Cert.Attn.RealLaw

/-! ### Extended reals that are real numbers -/

/-- An extended real is *real* when it is the image of some real number, that is, it is neither
    `⊤` nor `⊥`. -/
def IsReal (x : EReal) : Prop := ∃ r : ℝ, x = (r : EReal)

/-- The image of a real number is real. -/
theorem isReal_coe (r : ℝ) : IsReal (r : EReal) := ⟨r, rfl⟩

/-- The product of two real extended reals is real: `↑a * ↑b = ↑(a * b)`. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The sum of two real extended reals is real: `↑a + ↑b = ↑(a + b)`. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The coercion `ℝ → EReal` commutes with a finite sum: the image of `∑ k ∈ s, f k` is the sum of
    the images. -/
theorem coe_sum {K : Type*} (s : Finset K) (f : K → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

variable {E M K : Type*} [Fintype E] [Fintype M] [Fintype K]

/-- A finite sum of real extended reals is real. -/
theorem isReal_sum {f : K → EReal} (hf : ∀ k, IsReal (f k)) : IsReal (∑ k, f k) := by
  choose f' hf' using hf
  refine ⟨∑ k, f' k, ?_⟩
  rw [coe_sum]
  exact Finset.sum_congr rfl fun k _ => hf' k

/-- A finite sum of products of real extended reals is real. -/
theorem isReal_sum_mul {a b : K → EReal} (ha : ∀ k, IsReal (a k)) (hb : ∀ k, IsReal (b k)) :
    IsReal (∑ k, a k * b k) :=
  isReal_sum fun k => isReal_mul (ha k) (hb k)

/-- The hyperbolic tangent of a real extended real is real: on the image of `r` it is the image of
    `Real.tanh r`. -/
theorem isReal_tanh {x : EReal} (hx : IsReal x) : IsReal (Ideal.tanh x) := by
  obtain ⟨r, rfl⟩ := hx
  exact ⟨Real.tanh r, Ideal.tanh_coe r⟩

/-! ### The two literals -/

/-- The single-precision pattern `0x3A800000` (sign `0`, exponent field `117`, significand field `0`)
    denotes `2 ^ (117 - 127) = 2 ^ (-10) = 1 / 1024`. -/
theorem inv_1024 : Ideal.ofBits .f32 0x3A800000#32 = (((1 / 1024 : ℝ)) : EReal) := by
  simp [Ideal.ofBits, Ideal.ieee, -EReal.coe_mul]; norm_num

/-- The single-precision pattern `0x44800000` (sign `0`, exponent field `137`, significand field `0`)
    denotes `2 ^ (137 - 127) = 2 ^ 10 = 1024`. -/
theorem lit_1024 : Ideal.ofBits .f32 0x44800000#32 = ((1024 : ℝ) : EReal) := by
  simp [Ideal.ofBits, Ideal.ieee, -EReal.coe_mul]; norm_num

/-! ### The law -/

/-- The reassociation law over the reals: for real numbers `l e`, `g m e`, `v m` over finite index
    types, `∑ m, ((∑ e, l e * g m e) * c) * v m = ∑ e, l e * ((∑ m, g m e * v m) * c)`.  Distribute
    the products over the inner sums, exchange the two sums, and compare term by term. -/
theorem reassoc_real (l : E → ℝ) (g : M → E → ℝ) (v : M → ℝ) (c : ℝ) :
    (∑ m, (∑ e, l e * g m e) * c * v m) = ∑ e, l e * ((∑ m, g m e * v m) * c) := by
  simp only [Finset.sum_mul, Finset.mul_sum]
  rw [Finset.sum_comm]
  refine Finset.sum_congr rfl fun e _ => Finset.sum_congr rfl fun m _ => ?_
  ring

/-- The reassociation law over the extended reals, for real entries: if every `l e`, `g m e` and
    `v m` is real then
    `∑ m, ((∑ e, l e * g m e) / 1024) * v m = ∑ e, l e * ((∑ m, g m e * v m) * (1/1024))`,
    where `/` is the ideal division.  Division by the nonzero real `1024` is multiplication by its
    reciprocal; then both sides are images of real numbers, equal by the law over the reals. -/
theorem reassoc (l : E → EReal) (g : M → E → EReal) (v : M → EReal)
    (hl : ∀ e, IsReal (l e)) (hg : ∀ m e, IsReal (g m e)) (hv : ∀ m, IsReal (v m)) :
    (∑ m, Ideal.div (∑ e, l e * g m e) ((1024 : ℝ) : EReal) * v m)
      = ∑ e, l e * ((∑ m, g m e * v m) * (((1 / 1024 : ℝ)) : EReal)) := by
  choose l' hl' using hl
  choose g' hg' using hg
  choose v' hv' using hv
  have h1024 : (1024 : ℝ) ≠ 0 := by norm_num
  simp only [hl', hg', hv', Ideal.div_coe h1024, ← EReal.coe_mul, ← coe_sum]
  exact congrArg _ (reassoc_real l' g' v' (1 / 1024))

/-- The same law with a common additive tail `x` (any extended real) on both sides. -/
theorem reassoc_add (l : E → EReal) (g : M → E → EReal) (v : M → EReal)
    (hl : ∀ e, IsReal (l e)) (hg : ∀ m e, IsReal (g m e)) (hv : ∀ m, IsReal (v m)) (x : EReal) :
    (∑ m, Ideal.div (∑ e, l e * g m e) ((1024 : ℝ) : EReal) * v m) + x
      = (∑ e, l e * ((∑ m, g m e * v m) * (((1 / 1024 : ℝ)) : EReal))) + x :=
  congrArg (· + x) (reassoc l g v hl hg hv)

end Cert.Attn.RealLaw

end
-- ==== Proof.Spec.lean ====
/-
  Two layers of mean-aggregated graph convolution followed by a three-layer classifier, written as formulas on the
  extended reals, and the laws that join two arrangements of them.

  A node `n` aggregates the rows `row e` of a feature table over the edges `e` whose destination word reads `n`
  (`seg`), and the aggregate is averaged by the node's clamped degree `d ≥ 1`. One arrangement multiplies the
  aggregate by the reciprocal `1 / d`, the other divides by `d`; they agree for every `d ≠ 0` (`mean_eq`). In the
  second layer one arrangement projects every row through the weight matrix BEFORE aggregating (so that the aggregated
  rows are narrower) and the other aggregates first and projects the mean. Aggregation and averaging are linear, so
  the two agree — but linearity of a finite sum over the extended reals needs every entry to be a real number, which
  is where finiteness of the inputs enters (`project_then_aggregate`).
-/
import Idealize.ShloMosaic.PureOps.Ideal
import proofs.«125335_j11381663334735_2_alg».proof.Proof.LibRealLaw

noncomputable section

open scoped BigOperators

namespace Cert.Sage

open Idealize.ShloMosaic Cert.Attn.RealLaw

variable {E N A B : ℕ}

/-! ## The formulas -/

/-- One row times a matrix: entry `j` of `X · W`. -/
def dense (X : Fin A → EReal) (W : Fin A → Fin B → EReal) (j : Fin B) : EReal := ∑ k : Fin A, X k * W k j

/-- The aggregate of node `n`: the sum, over the edges `e` whose destination word `dw e` reads `n` as a signed
    integer, of entry `k` of row `row e` of the table `X`. -/
def seg (dw : Fin E → BitVec 32) (row : Fin E → Fin N) (X : Fin N → Fin A → EReal) (n : Fin N) (k : Fin A) : EReal :=
  ∑ e : Fin E, if (dw e).toInt = (n.val : Int) then X (row e) k else 0

/-- The mean as a product with the reciprocal of the clamped degree … -/
def meanMul (d s : EReal) : EReal := s * Ideal.div 1 d
/-- … and as a quotient by it. -/
def meanDiv (d s : EReal) : EReal := Ideal.div s d

/-- The first layer's output row, bias added LAST: `max (a · Wl + x · Wr + b, 0)`. -/
def hidLast (a x : Fin A → EReal) (Wl Wr : Fin A → Fin B → EReal) (b : Fin B → EReal) (j : Fin B) : EReal :=
  max ((dense a Wl j + dense x Wr j) + b j) 0
/-- The same with the bias added in the middle: `max ((a · Wl + b) + x · Wr, 0)`. -/
def hidMid (a x : Fin A → EReal) (Wl Wr : Fin A → Fin B → EReal) (b : Fin B → EReal) (j : Fin B) : EReal :=
  max ((dense a Wl j + b j) + dense x Wr j) 0

/-- The second layer's output entry when the rows were projected before aggregation: `h · Wr + p · (1/d) + b`, `p`
    the aggregate of the projected rows. -/
def embProj (hrow : Fin A → EReal) (p : EReal) (d : EReal) (Wr : Fin A → Fin B → EReal) (b : Fin B → EReal)
    (k : Fin B) : EReal :=
  (dense hrow Wr k + meanMul d p) + b k
/-- The same when the rows are aggregated first: `(mean · Wl + b) + h · Wr`, `mean j = s j / d`. -/
def embAgg (hrow : Fin A → EReal) (s : Fin A → EReal) (d : EReal) (Wl Wr : Fin A → Fin B → EReal) (b : Fin B → EReal)
    (k : Fin B) : EReal :=
  (dense (fun j => meanDiv d (s j)) Wl k + b k) + dense hrow Wr k

/-- A classifier layer: `max (r · W + b, 0)`. -/
def relu (r : Fin A → EReal) (W : Fin A → Fin B → EReal) (b : Fin B → EReal) (j : Fin B) : EReal :=
  max (dense r W j + b j) 0

/-- The classifier's probability from an embedding row: two rectified layers, a last layer of one column, and the
    logistic function. -/
def prob {A₁ A₂ A₃ : ℕ} (emb : Fin A₁ → EReal) (W1 : Fin A₁ → Fin A₂ → EReal) (b1 : Fin A₂ → EReal)
    (W2 : Fin A₂ → Fin A₃ → EReal) (b2 : Fin A₃ → EReal) (W3 : Fin A₃ → Fin 1 → EReal) (b3 : EReal) : EReal :=
  Ideal.logistic (dense (relu (relu emb W1 b1) W2 b2) W3 0 + b3)

/-! ## The laws -/

/-- For a divisor other than zero the product with its reciprocal is the quotient. -/
theorem mean_eq {d : EReal} (hd : d ≠ 0) (s : EReal) : meanMul d s = meanDiv d s := by
  unfold meanMul meanDiv Ideal.div
  rw [if_neg hd, if_neg hd, one_mul]

/-- Addition on the extended reals is commutative and associative: the bias may be added last or in the middle. -/
theorem hid_eq (a x : Fin A → EReal) (Wl Wr : Fin A → Fin B → EReal) (b : Fin B → EReal) (j : Fin B) :
    hidLast a x Wl Wr b j = hidMid a x Wl Wr b j := by
  unfold hidLast hidMid
  rw [add_right_comm]

/-- A clamped degree `d ≥ 1` is not zero … -/
theorem ne_zero_of_one_le {d : EReal} (hd : 1 ≤ d) : d ≠ 0 := fun h => by
  rw [h] at hd
  exact absurd hd (by norm_num)

/-- … and its reciprocal is a real number (that of a real `d`, or `0` for `d = ⊤`). -/
theorem isReal_inv_of_one_le {d : EReal} (hd : 1 ≤ d) : IsReal d⁻¹ := by
  induction d using EReal.rec with
  | bot => exact absurd (le_bot_iff.mp hd) (show (1 : EReal) ≠ ⊥ from EReal.coe_ne_bot 1)
  | coe r => exact ⟨r⁻¹, (EReal.coe_inv r).symm⟩
  | top => exact ⟨0, by simp⟩

/-- The maximum of two real numbers is a real number. -/
theorem isReal_max {x y : EReal} (hx : IsReal x) (hy : IsReal y) : IsReal (max x y) := by
  rcases le_total x y with h | h
  · rw [max_eq_right h]; exact hy
  · rw [max_eq_left h]; exact hx

theorem isReal_zero : IsReal (0 : EReal) := ⟨0, rfl⟩

/-- A row of real numbers times a matrix of real numbers is real. -/
theorem isReal_dense {X : Fin A → EReal} {W : Fin A → Fin B → EReal} (hX : ∀ k, IsReal (X k))
    (hW : ∀ k j, IsReal (W k j)) (j : Fin B) : IsReal (dense X W j) :=
  isReal_sum_mul hX fun k => hW k j

/-- The aggregate of a table of real numbers is real. -/
theorem isReal_seg (dw : Fin E → BitVec 32) (row : Fin E → Fin N) {X : Fin N → Fin A → EReal}
    (hX : ∀ i k, IsReal (X i k)) (n : Fin N) (k : Fin A) : IsReal (seg dw row X n k) :=
  isReal_sum fun e => by
    by_cases h : (dw e).toInt = (n.val : Int)
    · rw [if_pos h]; exact hX _ _
    · rw [if_neg h]; exact isReal_zero

/-- The mean of a real aggregate by a clamped degree is real. -/
theorem isReal_meanMul {d s : EReal} (hd : 1 ≤ d) (hs : IsReal s) : IsReal (meanMul d s) := by
  unfold meanMul Ideal.div
  rw [if_neg (ne_zero_of_one_le hd), one_mul]
  exact isReal_mul hs (isReal_inv_of_one_le hd)

/-- The first layer's output is real when its operands are. -/
theorem isReal_hidLast {a x : Fin A → EReal} {Wl Wr : Fin A → Fin B → EReal} {b : Fin B → EReal}
    (ha : ∀ k, IsReal (a k)) (hx : ∀ k, IsReal (x k)) (hWl : ∀ k j, IsReal (Wl k j)) (hWr : ∀ k j, IsReal (Wr k j))
    (hb : ∀ j, IsReal (b j)) (j : Fin B) : IsReal (hidLast a x Wl Wr b j) :=
  isReal_max (isReal_add (isReal_add (isReal_dense ha hWl j) (isReal_dense hx hWr j)) (hb j)) isReal_zero

/-- Over the reals: the aggregate of the projected rows, scaled, is the projection of the scaled aggregate — distribute
    the products over the sums and exchange the two finite sums. -/
theorem project_real (S : Finset (Fin E)) (row : Fin E → Fin N) (h : Fin N → Fin A → ℝ) (W : Fin A → Fin B → ℝ) (c : ℝ)
    (k : Fin B) :
    (∑ e ∈ S, ∑ j, h (row e) j * W j k) * c = ∑ j, (∑ e ∈ S, h (row e) j) * c * W j k := by
  simp only [Finset.sum_mul]
  rw [Finset.sum_comm]
  refine Finset.sum_congr rfl fun j _ => Finset.sum_congr rfl fun e _ => ?_
  ring

/-- PROJECT, THEN AGGREGATE = AGGREGATE, THEN PROJECT. For a table `h` and a matrix `W` of real numbers and a clamped
    degree `d ≥ 1`: the mean (by the reciprocal) of the aggregate of the rows `h i · W` is the row of means (by the
    quotient) of the aggregate of `h`, times `W`. -/
theorem project_then_aggregate (dw : Fin E → BitVec 32) (row : Fin E → Fin N) (h : Fin N → Fin A → EReal)
    (W : Fin A → Fin B → EReal) (d : EReal) (hh : ∀ i j, IsReal (h i j)) (hW : ∀ j k, IsReal (W j k)) (hd : 1 ≤ d)
    (n : Fin N) (k : Fin B) :
    meanMul d (seg dw row (fun i k' => dense (h i) W k') n k)
      = dense (fun j => meanDiv d (seg dw row h n j)) W k := by
  obtain ⟨c, hc⟩ := isReal_inv_of_one_le hd
  choose h' hh' using hh
  choose W' hW' using hW
  have hd0 := ne_zero_of_one_le hd
  unfold meanMul meanDiv Ideal.div dense seg
  simp only [if_neg hd0, one_mul, hc, ← Finset.sum_filter, hh', hW', ← EReal.coe_mul, ← coe_sum]
  exact congrArg _ (project_real _ row h' W' c k)

/-- The second layer's two arrangements agree on real entries. -/
theorem emb_eq (dw : Fin E → BitVec 32) (row : Fin E → Fin N) (h : Fin N → Fin A → EReal)
    (Wl Wr : Fin A → Fin B → EReal) (b : Fin B → EReal) (d : EReal) (hh : ∀ i j, IsReal (h i j))
    (hW : ∀ j k, IsReal (Wl j k)) (hd : 1 ≤ d) (n : Fin N) (k : Fin B) :
    embProj (h n) (seg dw row (fun i k' => dense (h i) Wl k') n k) d Wr b k
      = embAgg (h n) (fun j => seg dw row h n j) d Wl Wr b k := by
  unfold embProj embAgg
  rw [project_then_aggregate dw row h Wl d hh hW hd n k, add_comm (dense (h n) Wr k), add_right_comm]

end Cert.Sage

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibBlockLayout.lean ====
/-
  Three layout steps of a pipelined kernel body, read at an entry, for any extents.

  A window's block carries a leading unit axis: a body that works on matrices casts a [1, R, C] block to an [R, C]
  matrix on loading and an [R, C] result back to a [1, R, C] block on storing; and a bias kept as a [1, N] row is
  repeated down the R rows of the matrix it is added to. Each step, read at an entry, is the operand read at the
  evident entry: the row-major position of (0, r, c) among [1, R, C] is that of (r, c) among [R, C].
-/
import Idealize.ShloMosaic.Lib.Pipeline.Value
import Idealize.ShloMosaic.Lib.ValueIdx

noncomputable section

namespace Cert.LibBlockLayout

open Idealize.ShloMosaic Idealize.ShloMosaic.ValueIdx

/-- A [1, R, C] block viewed as an [R, C] matrix reads, at (r, c), the block at (0, r, c). -/
theorem dropUnit_at {α : Type} {R C : ℕ} (v : (⟨3, ![1, R, C]⟩ : Shape).Idx → α)
    (h : (⟨3, ![1, R, C]⟩ : Shape).ShapeCasts ⟨2, ![R, C]⟩) (r : Fin R) (c : Fin C) :
    shapeCast ⟨2, ![R, C]⟩ v h (ix2 r c) = v (ix3 (0 : Fin 1) r c) := by
  refine shapeCast_apply v h (ix2 r c) (ix3 (0 : Fin 1) r c) ?_
  rw [Shape.rowMajor_val_three, Shape.rowMajor_val_two]
  show ((0 : ℕ) * R + r.val) * C + c.val = r.val * C + c.val
  rw [Nat.zero_mul, Nat.zero_add]

/-- An [R, C] matrix stored as a [1, R, C] block reads, at (0, r, c), the matrix at (r, c). -/
theorem addUnit_at {α : Type} {R C : ℕ} (v : (⟨2, ![R, C]⟩ : Shape).Idx → α)
    (h : (⟨2, ![R, C]⟩ : Shape).ShapeCasts ⟨3, ![1, R, C]⟩) (r : Fin R) (c : Fin C) :
    shapeCast ⟨3, ![1, R, C]⟩ v h (ix3 (0 : Fin 1) r c) = v (ix2 r c) := by
  refine shapeCast_apply v h (ix3 (0 : Fin 1) r c) (ix2 r c) ?_
  rw [Shape.rowMajor_val_three, Shape.rowMajor_val_two]
  show r.val * C + c.val = ((0 : ℕ) * R + r.val) * C + c.val
  rw [Nat.zero_mul, Nat.zero_add]

/-- A [1, N] row repeated down R rows reads, at (r, g), the row at (0, g). -/
theorem rowBroadcast_at {α : Type} {R N : ℕ} (row : (⟨2, ![1, N]⟩ : Shape).Idx → α)
    (hb : (⟨2, ![1, N]⟩ : Shape).Broadcasts ⟨2, ![R, N]⟩) (r : Fin R) (g : Fin N) :
    broadcastTo ⟨2, ![R, N]⟩ row hb (ix2 r g) = row (ix2 (0 : Fin 1) g) := by
  refine broadcastTo_apply row hb (ix2 r g) (ix2 (0 : Fin 1) g) (fun a => ?_)
  match a with
  | ⟨0, _⟩ => show (0 : ℕ) = if (1 : ℕ) = 1 then 0 else _; rw [if_pos rfl]
  | ⟨1, _⟩ =>
    show g.val = if N = 1 then 0 else g.val
    split_ifs with h
    · have := g.isLt; omega
    · rfl

end Cert.LibBlockLayout

end
-- ==== Proof.Region0.lean ====
/-
  The first kernel region, read as values. Its grid has 25 points; point `t` works on rows `4000 t … 4000 t + 3999`.
  From the blocks of the averaged aggregate `a` and of the features `x` (rows of the point), and the whole weight
  matrices, the body computes a block of hidden features `h = max (a · Wl + x · Wr + b, 0)` and, from it, a block of
  projected features `h · Wp`. A matrix product of a block is, row by row, the product of the whole array's row, so
  the two output arrays end as one function each of the region's input arrays, index by index.
-/
import proofs.«125335_j11381663334735_2_alg».proof.Proof.Gen.KernelIdeal.Frame
import proofs.«125335_j11381663334735_2_alg».proof.Proof.Spec
import proofs.«125335_j11381663334735_2_alg».proof.Proof.LibPlainMatmul
import proofs.«125335_j11381663334735_2_alg».proof.Proof.LibBlockLayout
import Idealize.ShloMosaic.Lib.Pipeline.Value
import Idealize.ShloMosaic.Lib.ValueIdx
import Idealize.ShloMosaic.PureOps.Ideal.Laws

set_option maxRecDepth 16384

noncomputable section

open scoped BigOperators

namespace Cert.Sage.Region0

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

/-! ## The payloads at an entry -/

/-- A [4000, 64] block times a [64, 128] matrix, at `(r, j)`. -/
theorem mm_64_128 (A : FVec Ideal S4000x64 .bf16) (B : FVec Ideal S64x128 .bf16) (r : Fin 4000) (j : Fin 128) :
    matmul dot_S4000x64_S64x128_S4000x128_1_0_0_1_n_n none A B (constant S4000x128 .f32 0x00000000#32) (ix2 r j)
      = ∑ k : Fin 64, A (ix2 r k) * B (ix2 k j) :=
  Cert.LibPlainMatmul.matmul_zero_apply (a := 4000) (n := 64) (b := 128) none A B r j

/-- A [4000, 128] block times a [128, 64] matrix, at `(r, k)`. -/
theorem mm_128_64 (A : FVec Ideal S4000x128 .bf16) (B : FVec Ideal S128x64 .bf16) (r : Fin 4000) (k : Fin 64) :
    matmul dot_S4000x128_S128x64_S4000x64_1_0_0_1_n_n none A B (constant S4000x64 .f32 0x00000000#32) (ix2 r k)
      = ∑ j : Fin 128, A (ix2 r j) * B (ix2 j k) :=
  Cert.LibPlainMatmul.matmul_zero_apply (a := 4000) (n := 128) (b := 64) none A B r k

/-- The hidden block at `(r, j)`: the first layer's row formula of the blocks' row `r`. -/
theorem hid_block_apply (v0 v3 : Vec Ideal S4000x64 .f32) (v5 v7 : Vec Ideal S64x128 .f32) (v12 : Vec Ideal S1x128 .f32)
    (r : Fin 4000) (j : Fin 128) :
    k0_pay1 (F := Ideal) v0 v3 v5 v7 v12 (ix2 r j)
      = hidLast (fun k => v0 (ix2 r k)) (fun k => v3 (ix2 r k)) (fun k j => v5 (ix2 k j)) (fun k j => v7 (ix2 k j))
          (fun j => v12 (ix2 (0 : Fin 1) j)) j := by
  unfold k0_pay1 hidLast dense
  simp only [maximumf_apply, addf_apply, broadcast_apply, mm_64_128, truncf_apply, shapeCast_self,
    Cert.LibBlockLayout.rowBroadcast_at, Ideal.ofBits_def, Ideal.ofBits_zero_f32]

/-- The projected block at `(r, k)`: the hidden block's row `r` times the projection matrix. -/
theorem proj_block_apply (v0 v3 : Vec Ideal S4000x64 .f32) (v5 v7 : Vec Ideal S64x128 .f32) (v12 : Vec Ideal S1x128 .f32)
    (v20 : Vec Ideal S128x64 .f32) (r : Fin 4000) (k : Fin 64) :
    k0_pay2 (F := Ideal) v0 v3 v5 v7 v12 v20 (ix2 r k)
      = dense (fun j => k0_pay1 (F := Ideal) v0 v3 v5 v7 v12 (ix2 r j)) (fun j k => v20 (ix2 j k)) k := by
  unfold k0_pay2 dense
  simp only [mm_128_64, truncf_apply]

/-! ## From blocks to arrays -/

theorem hz : (![0, 0] : Fin 2 → Nat) = fun _ => 0 := funext fun a => by fin_cases a <;> rfl

/-- The printed index maps, decided over the 25 grid points: the windows of the aggregate, the features and the two
    outputs sit at block row `t`; the weights' and the bias's windows are the whole arrays. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The hidden features as ONE function of the region's input arrays: row `n` from row `n` of the averaged aggregate
    and of the features. -/
def hidArr (a x : FVec Ideal S100000x64 .f32) (wl wr : FVec Ideal S64x128 .f32) (b : FVec Ideal S1x128 .f32) :
    FVec Ideal S100000x128 .f32 :=
  fun i => hidLast (fun k => a (ix2 (i 0) k)) (fun k => x (ix2 (i 0) k)) (fun k j => wl (ix2 k j)) (fun k j => wr (ix2 k j))
    (fun j => b (ix2 (0 : Fin 1) j)) (i 1)

/-- The projected features: the hidden features' row times the projection matrix. -/
def projArr (a x : FVec Ideal S100000x64 .f32) (wl wr : FVec Ideal S64x128 .f32) (b : FVec Ideal S1x128 .f32)
    (wp : FVec Ideal S128x64 .f32) : FVec Ideal S100000x64 .f32 :=
  fun i => dense (fun j => hidArr a x wl wr b (ix2 (i 0) j)) (fun j k => wp (ix2 j k)) (i 1)

theorem hidArr_apply (a x : FVec Ideal S100000x64 .f32) (wl wr : FVec Ideal S64x128 .f32) (b : FVec Ideal S1x128 .f32)
    (n : Fin 100000) (j : Fin 128) :
    hidArr a x wl wr b (ix2 n j) = hidLast (fun k => a (ix2 n k)) (fun k => x (ix2 n k)) (fun k j => wl (ix2 k j))
      (fun k j => wr (ix2 k j)) (fun j => b (ix2 (0 : Fin 1) j)) j := rfl

theorem projArr_apply (a x : FVec Ideal S100000x64 .f32) (wl wr : FVec Ideal S64x128 .f32) (b : FVec Ideal S1x128 .f32)
    (wp : FVec Ideal S128x64 .f32) (n : Fin 100000) (k : Fin 64) :
    projArr a x wl wr b wp (ix2 n k) = dense (fun j => hidArr a x wl wr b (ix2 n j)) (fun j k => wp (ix2 j k)) k := rfl

section Region
variable (V : (c : Dev nD) → (b : Ref sig .tc) → Buf (Elt Ideal) ((c : Thread nD τ).loc b))

/-- The hidden block of point `t` at `(r, j)`, from the region's input arrays: row `4000 t + r`. Each input block's
    entry is the array's entry at block index × block size + the entry's place in the block. -/
theorem hid_point (c : Dev nD) (t : Fin cfg0.N) (r : Fin 4000) (j : Fin 128) (n : Fin 100000)
    (hn : n.val = t.val * 4000 + r.val) :
    k0_pay1 (F := Ideal) (iblk0 V c 0 t) (iblk0 V c 1 t) (iblk0 V c 2 t) (iblk0 V c 3 t) (iblk0 V c 4 t) (ix2 r j)
      = hidArr (V c main_v24) (V c main_arg0) (V c main_arg2) (V c main_arg4) (V c main_v25) (ix2 n j) := by
  obtain ⟨e00, e01, e10, e11, e20, e21, e30, e31, e40, e41, e50, e51, e60, e61, e70, e71⟩ := idx_facts t
  refine (hid_block_apply (iblk0 V c 0 t) (iblk0 V c 1 t) (iblk0 V c 2 t) (iblk0 V c 3 t) (iblk0 V c 4 t) r j).trans ?_
  rw [hidArr_apply]
  have h0 : ∀ k : Fin 64, iblk0 V c 0 t (ix2 r k) = V c main_v24 (ix2 n k) := fun k => by
    show V c main_v24 (((cfg0.win 0).blk t).view.emb (ix2 r k)) = V c main_v24 (ix2 n k)
    refine congrArg _ (funext fun a => Fin.ext ?_)
    match a with
    | ⟨0, _⟩ => show win0_0.index t (0 : Fin 2) * 4000 + 1 * r.val = n.val; omega
    | ⟨1, _⟩ => show win0_0.index t (1 : Fin 2) * 64 + 1 * k.val = k.val; omega
  have h1 : ∀ k : Fin 64, iblk0 V c 1 t (ix2 r k) = V c main_arg0 (ix2 n k) := fun k => by
    show V c main_arg0 (((cfg0.win 1).blk t).view.emb (ix2 r k)) = V c main_arg0 (ix2 n k)
    refine congrArg _ (funext fun a => Fin.ext ?_)
    match a with
    | ⟨0, _⟩ => show win0_1.index t (0 : Fin 2) * 4000 + 1 * r.val = n.val; omega
    | ⟨1, _⟩ => show win0_1.index t (1 : Fin 2) * 64 + 1 * k.val = k.val; omega
  have h2 : ∀ (k : Fin 64) (j : Fin 128), iblk0 V c 2 t (ix2 k j) = V c main_arg2 (ix2 k j) := fun k j => by
    show V c main_arg2 (((cfg0.win 2).blk t).view.emb (ix2 k j)) = V c main_arg2 (ix2 k j)
    refine congrArg _ (funext fun a => Fin.ext ?_)
    match a with
    | ⟨0, _⟩ => show win0_2.index t (0 : Fin 2) * 64 + 1 * k.val = k.val; omega
    | ⟨1, _⟩ => show win0_2.index t (1 : Fin 2) * 128 + 1 * j.val = j.val; omega
  have h3 : ∀ (k : Fin 64) (j : Fin 128), iblk0 V c 3 t (ix2 k j) = V c main_arg4 (ix2 k j) := fun k j => by
    show V c main_arg4 (((cfg0.win 3).blk t).view.emb (ix2 k j)) = V c main_arg4 (ix2 k j)
    refine congrArg _ (funext fun a => Fin.ext ?_)
    match a with
    | ⟨0, _⟩ => show win0_3.index t (0 : Fin 2) * 64 + 1 * k.val = k.val; omega
    | ⟨1, _⟩ => show win0_3.index t (1 : Fin 2) * 128 + 1 * j.val = j.val; omega
  have h4 : ∀ j : Fin 128, iblk0 V c 4 t (ix2 (0 : Fin 1) j) = V c main_v25 (ix2 (0 : Fin 1) j) := fun j => by
    show V c main_v25 (((cfg0.win 4).blk t).view.emb (ix2 (0 : Fin 1) j)) = V c main_v25 (ix2 (0 : Fin 1) j)
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * j.val = j.val; omega
  simp only [h0, h1, h2, h3, h4]

/-- The projection matrix's block is the whole matrix. -/
theorem proj_weights (c : Dev nD) (t : Fin cfg0.N) (j : Fin 128) (k : Fin 64) :
    iblk0 V c 5 t (ix2 j k) = V c main_arg5 (ix2 j k) := by
  obtain ⟨e00, e01, e10, e11, e20, e21, e30, e31, e40, e41, e50, e51, e60, e61, e70, e71⟩ := idx_facts t
  show V c main_arg5 (((cfg0.win 5).blk t).view.emb (ix2 j k)) = V c main_arg5 (ix2 j k)
  refine congrArg _ (funext fun a => Fin.ext ?_)
  match a with
  | ⟨0, _⟩ => show win0_5.index t (0 : Fin 2) * 128 + 1 * j.val = j.val; omega
  | ⟨1, _⟩ => show win0_5.index t (1 : Fin 2) * 64 + 1 * k.val = k.val; omega

/-- WHAT POINT `t` WRITES BACK to the hidden features' array is block `t` of `hidArr` of the input arrays. -/
theorem flushed6_eq (c : Dev nD) (t : Fin cfg0.N) :
    (dat0 (F := Ideal) V c).flushed 6 t = ((cfg0.win 6).blk t).view.read (Elt Ideal)
      (hidArr (V c main_v24) (V c main_arg0) (V c main_arg2) (V c main_arg4) (V c main_v25)) := by
  show (cfg0.win 6).cut (grid0.coords t) ((dat0 (F := Ideal) V c).after 6 t) = _
  rw [after0_6]
  unfold out0_6
  rw [View.canon_unit_zero hz]
  simp only [View.ld_unit_zero (S := S4000x64) hz, View.ld_unit_zero (S := S64x128) hz, View.ld_unit_zero (S := S1x128) hz]
  obtain ⟨e00, e01, e10, e11, e20, e21, e30, e31, e40, e41, e50, e51, e60, e61, e70, e71⟩ := idx_facts t
  funext y
  obtain ⟨r, q, rfl⟩ : ∃ (r : Fin 4000) (q : Fin 128), y = ix2 r q := ⟨y 0, y 1, eq_ix2 y⟩
  show k0_pay1 (F := Ideal) (iblk0 V c 0 t) (iblk0 V c 1 t) (iblk0 V c 2 t) (iblk0 V c 3 t) (iblk0 V c 4 t) (ix2 r q)
    = hidArr (V c main_v24) (V c main_arg0) (V c main_arg2) (V c main_arg4) (V c main_v25) (((cfg0.win 6).blk t).view.emb (ix2 r q))
  have hN : grid0.N = 25 := N_0
  have ht : t.val < grid0.N := t.isLt
  have hr := r.isLt
  rw [hid_point V c t r q ⟨t.val * 4000 + r.val, by omega⟩ rfl]
  refine congrArg _ (funext fun a => Fin.ext ?_)
  match a with
  | ⟨0, _⟩ => show t.val * 4000 + r.val = win0_6.index t (0 : Fin 2) * 4000 + 1 * r.val; omega
  | ⟨1, _⟩ => show q.val = win0_6.index t (1 : Fin 2) * 128 + 1 * q.val; omega

/-- WHAT POINT `t` WRITES BACK to the projected features' array is block `t` of `projArr`. -/
theorem flushed7_eq (c : Dev nD) (t : Fin cfg0.N) :
    (dat0 (F := Ideal) V c).flushed 7 t = ((cfg0.win 7).blk t).view.read (Elt Ideal)
      (projArr (V c main_v24) (V c main_arg0) (V c main_arg2) (V c main_arg4) (V c main_v25) (V c main_arg5)) := by
  show (cfg0.win 7).cut (grid0.coords t) ((dat0 (F := Ideal) V c).after 7 t) = _
  rw [after0_7]
  unfold out0_7
  rw [View.canon_unit_zero hz]
  simp only [View.ld_unit_zero (S := S4000x64) hz, View.ld_unit_zero (S := S64x128) hz, View.ld_unit_zero (S := S1x128) hz,
    View.ld_unit_zero (S := S128x64) hz]
  obtain ⟨e00, e01, e10, e11, e20, e21, e30, e31, e40, e41, e50, e51, e60, e61, e70, e71⟩ := idx_facts t
  funext y
  obtain ⟨r, q, rfl⟩ : ∃ (r : Fin 4000) (q : Fin 64), y = ix2 r q := ⟨y 0, y 1, eq_ix2 y⟩
  show k0_pay2 (F := Ideal) (iblk0 V c 0 t) (iblk0 V c 1 t) (iblk0 V c 2 t) (iblk0 V c 3 t) (iblk0 V c 4 t) (iblk0 V c 5 t) (ix2 r q)
    = projArr (V c main_v24) (V c main_arg0) (V c main_arg2) (V c main_arg4) (V c main_v25) (V c main_arg5)
        (((cfg0.win 7).blk t).view.emb (ix2 r q))
  have hN : grid0.N = 25 := N_0
  have ht : t.val < grid0.N := t.isLt
  have hr := r.isLt
  refine (proj_block_apply (iblk0 V c 0 t) (iblk0 V c 1 t) (iblk0 V c 2 t) (iblk0 V c 3 t) (iblk0 V c 4 t) (iblk0 V c 5 t) r q).trans ?_
  have hE : ((cfg0.win 7).blk t).view.emb (ix2 r q) = ix2 (⟨t.val * 4000 + r.val, by omega⟩ : Fin 100000) q := by
    refine funext fun a => Fin.ext ?_
    match a with
    | ⟨0, _⟩ => show win0_7.index t (0 : Fin 2) * 4000 + 1 * r.val = t.val * 4000 + r.val; omega
    | ⟨1, _⟩ => show win0_7.index t (1 : Fin 2) * 64 + 1 * q.val = q.val; omega
  rw [hE, projArr_apply]
  simp only [hid_point V c t r _ ⟨t.val * 4000 + r.val, by omega⟩ rfl, proj_weights V c t]

/-- An index of a row-blocked output array is in point `t`'s block iff each coordinate is in the block's range. -/
theorem mem_blk6 (t : Fin cfg0.N) (i : S100000x128.Idx) :
    i ∈ ((cfg0.win 6).blk t).view.set ↔ ∀ a : Fin 2, win0_6.index t a * S4000x128.size a ≤ (i a).val
      ∧ (i a).val < win0_6.index t a * S4000x128.size a + S4000x128.size a := by
  show i ∈ ((View.whole main_v26_0).slice (win0_6.rect t)).set ↔ _
  rw [View.set_slice_whole, Rect.mem_set_unit]
  exact Iff.rfl

theorem mem_blk7 (t : Fin cfg0.N) (i : S100000x64.Idx) :
    i ∈ ((cfg0.win 7).blk t).view.set ↔ ∀ a : Fin 2, win0_7.index t a * S4000x64.size a ≤ (i a).val
      ∧ (i a).val < win0_7.index t a * S4000x64.size a + S4000x64.size a := by
  show i ∈ ((View.whole main_v26_1).slice (win0_7.rect t)).set ↔ _
  rw [View.set_slice_whole, Rect.mem_set_unit]
  exact Iff.rfl

/-- The 25 blocks of 4000 rows tile the 100000 rows: row `n` is in the block of point `n / 4000`. -/
theorem cover6 (i : S100000x128.Idx) : ∃ t : Fin cfg0.N, (cfg0.win 6).flush t = true ∧ i ∈ ((cfg0.win 6).blk t).view.set := by
  have hN : grid0.N = 25 := N_0
  have hi0 : (i 0).val < 100000 := (i 0).isLt
  have hi1 : (i 1).val < 128 := (i 1).isLt
  refine ⟨⟨(i 0).val / 4000, by show (i 0).val / 4000 < grid0.N; omega⟩, flush0_6 _, ?_⟩
  rw [mem_blk6]
  obtain ⟨e00, e01, e10, e11, e20, e21, e30, e31, e40, e41, e50, e51, e60, e61, e70, e71⟩ :=
    idx_facts ⟨(i 0).val / 4000, by show (i 0).val / 4000 < grid0.N; omega⟩
  intro a
  match a with
  | ⟨0, _⟩ =>
    show win0_6.index _ (0 : Fin 2) * 4000 ≤ (i 0).val ∧ (i 0).val < win0_6.index _ (0 : Fin 2) * 4000 + 4000
    rw [e60]; show (i 0).val / 4000 * 4000 ≤ (i 0).val ∧ (i 0).val < (i 0).val / 4000 * 4000 + 4000; omega
  | ⟨1, _⟩ =>
    show win0_6.index _ (1 : Fin 2) * 128 ≤ (i 1).val ∧ (i 1).val < win0_6.index _ (1 : Fin 2) * 128 + 128
    rw [e61]; omega

theorem cover7 (i : S100000x64.Idx) : ∃ t : Fin cfg0.N, (cfg0.win 7).flush t = true ∧ i ∈ ((cfg0.win 7).blk t).view.set := by
  have hN : grid0.N = 25 := N_0
  have hi0 : (i 0).val < 100000 := (i 0).isLt
  have hi1 : (i 1).val < 64 := (i 1).isLt
  refine ⟨⟨(i 0).val / 4000, by show (i 0).val / 4000 < grid0.N; omega⟩, flush0_7 _, ?_⟩
  rw [mem_blk7]
  obtain ⟨e00, e01, e10, e11, e20, e21, e30, e31, e40, e41, e50, e51, e60, e61, e70, e71⟩ :=
    idx_facts ⟨(i 0).val / 4000, by show (i 0).val / 4000 < grid0.N; omega⟩
  intro a
  match a with
  | ⟨0, _⟩ =>
    show win0_7.index _ (0 : Fin 2) * 4000 ≤ (i 0).val ∧ (i 0).val < win0_7.index _ (0 : Fin 2) * 4000 + 4000
    rw [e70]; show (i 0).val / 4000 * 4000 ≤ (i 0).val ∧ (i 0).val < (i 0).val / 4000 * 4000 + 4000; omega
  | ⟨1, _⟩ =>
    show win0_7.index _ (1 : Fin 2) * 64 ≤ (i 1).val ∧ (i 1).val < win0_7.index _ (1 : Fin 2) * 64 + 64
    rw [e71]; omega

/-- THE HIDDEN FEATURES' ARRAY after the region: `hidArr` of the region's input arrays. -/
theorem final6 (c : Dev nD) : (dat0 (F := Ideal) V c).arrAt 6 cfg0.N
    = hidArr (V c main_v24) (V c main_arg0) (V c main_arg2) (V c main_arg4) (V c main_v25) :=
  (dat0 (F := Ideal) V c).arrAt_eq_of_cover 6 _ (fun t _ => flushed6_eq V c t) cover6

/-- THE PROJECTED FEATURES' ARRAY after the region: `projArr` of the region's input arrays. -/
theorem final7 (c : Dev nD) : (dat0 (F := Ideal) V c).arrAt 7 cfg0.N
    = projArr (V c main_v24) (V c main_arg0) (V c main_arg2) (V c main_arg4) (V c main_v25) (V c main_arg5) :=
  (dat0 (F := Ideal) V c).arrAt_eq_of_cover 7 _ (fun t _ => flushed7_eq V c t) cover7

end Region

end Cert.Sage.Region0

end
-- ==== Proof.Region1.lean ====
/-
  The second kernel region, read as values. Again 25 grid points of 4000 rows. From the blocks of the second layer's
  averaged aggregate `g` and of the hidden features `h`, the body computes a block of embeddings `h · Wr + g + b` and,
  from it, the classifier's probabilities: two rectified layers, a last layer of one column, and the logistic
  function. Row by row a block's matrix product is the whole array's, so both output arrays end as one function each
  of the region's input arrays.
-/
import proofs.«125335_j11381663334735_2_alg».proof.Proof.Region0

set_option maxRecDepth 16384

noncomputable section

open scoped BigOperators

namespace Cert.Sage.Region1

open Cert.KernelIdeal Cert.KernelIdeal.Gen Cert.Sage Cert.Sage.Region0
open Idealize.ShloMosaic Idealize.ShloMosaic.TcCoe Idealize.ShloMosaic.ValueIdx Idealize.SL.Sem
open Idealize.ShloMosaic.Pipeline (Dat Cfg Window)

/-! ## The payloads at an entry -/

/-- A [4000, 64] block times a [64, 1] column, at `(r, 0)`. -/
theorem mm_64_1 (A : FVec Ideal S4000x64 .bf16) (B : FVec Ideal S64x1 .bf16) (r : Fin 4000) (z : Fin 1) :
    matmul dot_S4000x64_S64x1_S4000x1_1_0_0_1_n_n none A B (constant S4000x1 .f32 0x00000000#32) (ix2 r z)
      = ∑ k : Fin 64, A (ix2 r k) * B (ix2 k z) :=
  Cert.LibPlainMatmul.matmul_zero_apply (a := 4000) (n := 64) (b := 1) none A B r z

/-- The embedding block at `(r, k)`: the hidden block's row times the root weights, plus the aggregate's entry, plus
    the bias. -/
theorem emb_block_apply (v0 : Vec Ideal S4000x128 .f32) (v3 : Vec Ideal S128x64 .f32) (v6 : Vec Ideal S4000x64 .f32)
    (v9 : Vec Ideal S1x64 .f32) (r : Fin 4000) (k : Fin 64) :
    k1_pay2 (F := Ideal) v0 v3 v6 v9 (ix2 r k)
      = (dense (fun j => v0 (ix2 r j)) (fun j k => v3 (ix2 j k)) k + v6 (ix2 r k)) + v9 (ix2 (0 : Fin 1) k) := by
  unfold k1_pay2 dense
  simp only [addf_apply, mm_128_64, truncf_apply, shapeCast_self, Cert.LibBlockLayout.rowBroadcast_at]

/-- The classifier's second hidden block at `(r, k)`: two rectified layers of the embedding block's row. -/
theorem cls_block_apply (v0 : Vec Ideal S4000x128 .f32) (v3 : Vec Ideal S128x64 .f32) (v6 : Vec Ideal S4000x64 .f32)
    (v9 : Vec Ideal S1x64 .f32) (v15 : Vec Ideal S64x128 .f32) (v18 : Vec Ideal S1x128 .f32) (v25 : Vec Ideal S128x64 .f32)
    (v28 : Vec Ideal S1x64 .f32) (r : Fin 4000) (k : Fin 64) :
    k1_pay3 (F := Ideal) v0 v3 v6 v9 v15 v18 v25 v28 (ix2 r k)
      = relu (relu (fun i => k1_pay2 (F := Ideal) v0 v3 v6 v9 (ix2 r i)) (fun i j => v15 (ix2 i j))
          (fun j => v18 (ix2 (0 : Fin 1) j))) (fun j k => v25 (ix2 j k)) (fun k => v28 (ix2 (0 : Fin 1) k)) k := by
  unfold k1_pay3 relu dense
  simp only [truncf_apply, maximumf_apply, addf_apply, broadcast_apply, mm_128_64, mm_64_128, shapeCast_self,
    Cert.LibBlockLayout.rowBroadcast_at, Ideal.ofBits_def, Ideal.ofBits_zero_f32]

/-- The probability block at `(r, 0)`: the logistic function of the last layer's one column. -/
theorem prob_block_apply (v34 : FVec Ideal S4000x64 .bf16) (v35 : Vec Ideal S64x1 .f32) (v38 : Vec Ideal S1x1 .f32)
    (r : Fin 4000) :
    k1_pay1 (F := Ideal) v34 v35 v38 (ix2 r (0 : Fin 1))
      = Ideal.logistic (dense (fun k => v34 (ix2 r k)) (fun k z => v35 (ix2 k z)) (0 : Fin 1)
          + v38 (ix2 (0 : Fin 1) (0 : Fin 1))) := by
  unfold k1_pay1 dense
  show FloatOps.logistic _ = _
  simp only [addf_apply, mm_64_1, truncf_apply, shapeCast_self, Cert.LibBlockLayout.rowBroadcast_at, Ideal.logistic_def]

/-! ## From blocks to arrays -/

/-- The printed index maps over the 25 grid points: the aggregate's, the hidden features' and the two outputs' windows
    sit at block row `t`; every weight's and bias's window is the whole array. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0
    ∧ win1_11.index t (0 : Fin 2) = t.val ∧ win1_11.index t (1 : Fin 2) = 0 :=
  (by decide +kernel : ∀ t : Fin grid1.N, _)

/-- The embeddings as ONE function of the region's input arrays. -/
def embArr (g : FVec Ideal S100000x64 .f32) (h : FVec Ideal S100000x128 .f32) (wr : FVec Ideal S128x64 .f32)
    (b : FVec Ideal S1x64 .f32) : FVec Ideal S100000x64 .f32 :=
  fun i => (dense (fun j => h (ix2 (i 0) j)) (fun j k => wr (ix2 j k)) (i 1) + g (ix2 (i 0) (i 1))) + b (ix2 (0 : Fin 1) (i 1))

/-- The probabilities: the classifier of the embeddings' row. -/
def probArr (g : FVec Ideal S100000x64 .f32) (h : FVec Ideal S100000x128 .f32) (wr : FVec Ideal S128x64 .f32)
    (b : FVec Ideal S1x64 .f32) (w1 : FVec Ideal S64x128 .f32) (b1 : FVec Ideal S1x128 .f32) (w2 : FVec Ideal S128x64 .f32)
    (b2 : FVec Ideal S1x64 .f32) (w3 : FVec Ideal S64x1 .f32) (b3 : FVec Ideal S1x1 .f32) : FVec Ideal S100000x1 .f32 :=
  fun i => prob (fun k => embArr g h wr b (ix2 (i 0) k)) (fun i j => w1 (ix2 i j)) (fun j => b1 (ix2 (0 : Fin 1) j))
    (fun j k => w2 (ix2 j k)) (fun k => b2 (ix2 (0 : Fin 1) k)) (fun k z => w3 (ix2 k z)) (b3 (ix2 (0 : Fin 1) (0 : Fin 1)))

theorem embArr_apply (g : FVec Ideal S100000x64 .f32) (h : FVec Ideal S100000x128 .f32) (wr : FVec Ideal S128x64 .f32)
    (b : FVec Ideal S1x64 .f32) (n : Fin 100000) (k : Fin 64) :
    embArr g h wr b (ix2 n k)
      = (dense (fun j => h (ix2 n j)) (fun j k => wr (ix2 j k)) k + g (ix2 n k)) + b (ix2 (0 : Fin 1) k) := rfl

theorem probArr_apply (g : FVec Ideal S100000x64 .f32) (h : FVec Ideal S100000x128 .f32) (wr : FVec Ideal S128x64 .f32)
    (b : FVec Ideal S1x64 .f32) (w1 : FVec Ideal S64x128 .f32) (b1 : FVec Ideal S1x128 .f32) (w2 : FVec Ideal S128x64 .f32)
    (b2 : FVec Ideal S1x64 .f32) (w3 : FVec Ideal S64x1 .f32) (b3 : FVec Ideal S1x1 .f32) (n : Fin 100000) :
    probArr g h wr b w1 b1 w2 b2 w3 b3 (ix2 n (0 : Fin 1))
      = prob (fun k => embArr g h wr b (ix2 n k)) (fun i j => w1 (ix2 i j)) (fun j => b1 (ix2 (0 : Fin 1) j))
          (fun j k => w2 (ix2 j k)) (fun k => b2 (ix2 (0 : Fin 1) k)) (fun k z => w3 (ix2 k z))
          (b3 (ix2 (0 : Fin 1) (0 : Fin 1))) := rfl

section Region
variable (V : (c : Dev nD) → (b : Ref sig .tc) → Buf (Elt Ideal) ((c : Thread nD τ).loc b))

/-- The embedding block of point `t` at `(r, k)` is the embeddings' function at row `4000 t + r`. -/
theorem emb_point (c : Dev nD) (t : Fin cfg1.N) (r : Fin 4000) (k : Fin 64) (n : Fin 100000)
    (hn : n.val = t.val * 4000 + r.val) :
    k1_pay2 (F := Ideal) (iblk1 V c 1 t) (iblk1 V c 2 t) (iblk1 V c 0 t) (iblk1 V c 3 t) (ix2 r k) = embArr (V c main_v38) (V c main_v26_0) (V c main_arg7) (V c main_v39) (ix2 n k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  refine (emb_block_apply (iblk1 V c 1 t) (iblk1 V c 2 t) (iblk1 V c 0 t) (iblk1 V c 3 t) r k).trans ?_
  rw [embArr_apply]
  have h0 : ∀ k : Fin 64, iblk1 V c 0 t (ix2 r k) = V c main_v38 (ix2 n k) := fun k => by
    show V c main_v38 (((cfg1.win 0).blk t).view.emb (ix2 r k)) = V c main_v38 (ix2 n k)
    refine congrArg _ (funext fun a => Fin.ext ?_)
    match a with
    | ⟨0, _⟩ => show win1_0.index t (0 : Fin 2) * 4000 + 1 * r.val = n.val; omega
    | ⟨1, _⟩ => show win1_0.index t (1 : Fin 2) * 64 + 1 * k.val = k.val; omega
  have h1 : ∀ k : Fin 128, iblk1 V c 1 t (ix2 r k) = V c main_v26_0 (ix2 n k) := fun k => by
    show V c main_v26_0 (((cfg1.win 1).blk t).view.emb (ix2 r k)) = V c main_v26_0 (ix2 n k)
    refine congrArg _ (funext fun a => Fin.ext ?_)
    match a with
    | ⟨0, _⟩ => show win1_1.index t (0 : Fin 2) * 4000 + 1 * r.val = n.val; omega
    | ⟨1, _⟩ => show win1_1.index t (1 : Fin 2) * 128 + 1 * k.val = k.val; omega
  have h2 : ∀ (j : Fin 128) (k : Fin 64), iblk1 V c 2 t (ix2 j k) = V c main_arg7 (ix2 j k) := fun j k => by
    show V c main_arg7 (((cfg1.win 2).blk t).view.emb (ix2 j k)) = V c main_arg7 (ix2 j k)
    refine congrArg _ (funext fun a => Fin.ext ?_)
    match a with
    | ⟨0, _⟩ => show win1_2.index t (0 : Fin 2) * 128 + 1 * j.val = j.val; omega
    | ⟨1, _⟩ => show win1_2.index t (1 : Fin 2) * 64 + 1 * k.val = k.val; omega
  have h3 : ∀ k : Fin 64, iblk1 V c 3 t (ix2 (0 : Fin 1) k) = V c main_v39 (ix2 (0 : Fin 1) k) := fun k => by
    show V c main_v39 (((cfg1.win 3).blk t).view.emb (ix2 (0 : Fin 1) k)) = V c main_v39 (ix2 (0 : Fin 1) k)
    refine congrArg _ (funext fun a => Fin.ext ?_)
    match a with
    | ⟨0, _⟩ => show win1_3.index t (0 : Fin 2) * 1 + 1 * 0 = 0; omega
    | ⟨1, _⟩ => show win1_3.index t (1 : Fin 2) * 64 + 1 * k.val = k.val; omega
  simp only [h0, h1, h2, h3]

/-- The probability block of point `t` at `(r, 0)` is the probabilities' function at row `4000 t + r`. -/
theorem prob_point (c : Dev nD) (t : Fin cfg1.N) (r : Fin 4000) (n : Fin 100000) (hn : n.val = t.val * 4000 + r.val) :
    k1_pay1 (F := Ideal) (k1_pay3 (F := Ideal) (iblk1 V c 1 t) (iblk1 V c 2 t) (iblk1 V c 0 t) (iblk1 V c 3 t) (iblk1 V c 4 t) (iblk1 V c 5 t) (iblk1 V c 6 t) (iblk1 V c 7 t)) (iblk1 V c 8 t) (iblk1 V c 9 t) (ix2 r (0 : Fin 1))
      = probArr (V c main_v38) (V c main_v26_0) (V c main_arg7) (V c main_v39) (V c main_arg8) (V c main_v40) (V c main_arg10) (V c main_v41) (V c main_arg12) (V c main_v42) (ix2 n (0 : Fin 1)) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  refine (prob_block_apply (k1_pay3 (F := Ideal) (iblk1 V c 1 t) (iblk1 V c 2 t) (iblk1 V c 0 t) (iblk1 V c 3 t) (iblk1 V c 4 t) (iblk1 V c 5 t) (iblk1 V c 6 t) (iblk1 V c 7 t)) (iblk1 V c 8 t) (iblk1 V c 9 t) r).trans ?_
  rw [probArr_apply]
  unfold prob
  have h4 : ∀ (j : Fin 64) (k : Fin 128), iblk1 V c 4 t (ix2 j k) = V c main_arg8 (ix2 j k) := fun j k => by
    show V c main_arg8 (((cfg1.win 4).blk t).view.emb (ix2 j k)) = V c main_arg8 (ix2 j k)
    refine congrArg _ (funext fun a => Fin.ext ?_)
    match a with
    | ⟨0, _⟩ => show win1_4.index t (0 : Fin 2) * 64 + 1 * j.val = j.val; omega
    | ⟨1, _⟩ => show win1_4.index t (1 : Fin 2) * 128 + 1 * k.val = k.val; omega
  have h5 : ∀ k : Fin 128, iblk1 V c 5 t (ix2 (0 : Fin 1) k) = V c main_v40 (ix2 (0 : Fin 1) k) := fun k => by
    show V c main_v40 (((cfg1.win 5).blk t).view.emb (ix2 (0 : Fin 1) k)) = V c main_v40 (ix2 (0 : Fin 1) k)
    refine congrArg _ (funext fun a => Fin.ext ?_)
    match a with
    | ⟨0, _⟩ => show win1_5.index t (0 : Fin 2) * 1 + 1 * 0 = 0; omega
    | ⟨1, _⟩ => show win1_5.index t (1 : Fin 2) * 128 + 1 * k.val = k.val; omega
  have h6 : ∀ (j : Fin 128) (k : Fin 64), iblk1 V c 6 t (ix2 j k) = V c main_arg10 (ix2 j k) := fun j k => by
    show V c main_arg10 (((cfg1.win 6).blk t).view.emb (ix2 j k)) = V c main_arg10 (ix2 j k)
    refine congrArg _ (funext fun a => Fin.ext ?_)
    match a with
    | ⟨0, _⟩ => show win1_6.index t (0 : Fin 2) * 128 + 1 * j.val = j.val; omega
    | ⟨1, _⟩ => show win1_6.index t (1 : Fin 2) * 64 + 1 * k.val = k.val; omega
  have h7 : ∀ k : Fin 64, iblk1 V c 7 t (ix2 (0 : Fin 1) k) = V c main_v41 (ix2 (0 : Fin 1) k) := fun k => by
    show V c main_v41 (((cfg1.win 7).blk t).view.emb (ix2 (0 : Fin 1) k)) = V c main_v41 (ix2 (0 : Fin 1) k)
    refine congrArg _ (funext fun a => Fin.ext ?_)
    match a with
    | ⟨0, _⟩ => show win1_7.index t (0 : Fin 2) * 1 + 1 * 0 = 0; omega
    | ⟨1, _⟩ => show win1_7.index t (1 : Fin 2) * 64 + 1 * k.val = k.val; omega
  have h8 : ∀ (j : Fin 64) (k : Fin 1), iblk1 V c 8 t (ix2 j k) = V c main_arg12 (ix2 j k) := fun j k => by
    show V c main_arg12 (((cfg1.win 8).blk t).view.emb (ix2 j k)) = V c main_arg12 (ix2 j k)
    refine congrArg _ (funext fun a => Fin.ext ?_)
    match a with
    | ⟨0, _⟩ => show win1_8.index t (0 : Fin 2) * 64 + 1 * j.val = j.val; omega
    | ⟨1, _⟩ => show win1_8.index t (1 : Fin 2) * 1 + 1 * k.val = k.val; omega
  have h9 : ∀ k : Fin 1, iblk1 V c 9 t (ix2 (0 : Fin 1) k) = V c main_v42 (ix2 (0 : Fin 1) k) := fun k => by
    show V c main_v42 (((cfg1.win 9).blk t).view.emb (ix2 (0 : Fin 1) k)) = V c main_v42 (ix2 (0 : Fin 1) k)
    refine congrArg _ (funext fun a => Fin.ext ?_)
    match a with
    | ⟨0, _⟩ => show win1_9.index t (0 : Fin 2) * 1 + 1 * 0 = 0; omega
    | ⟨1, _⟩ => show win1_9.index t (1 : Fin 2) * 1 + 1 * k.val = k.val; omega
  simp only [cls_block_apply, emb_point V c t r _ n hn, h4, h5, h6, h7, h8, h9]

/-- WHAT POINT `t` WRITES BACK to the embeddings' array is block `t` of `embArr` of the input arrays. -/
theorem flushed10_eq (c : Dev nD) (t : Fin cfg1.N) :
    (dat1 (F := Ideal) V c).flushed 10 t = ((cfg1.win 10).blk t).view.read (Elt Ideal) (embArr (V c main_v38) (V c main_v26_0) (V c main_arg7) (V c main_v39)) := by
  show (cfg1.win 10).cut (grid1.coords t) ((dat1 (F := Ideal) V c).after 10 t) = _
  rw [after1_10]
  unfold out1_10
  rw [View.canon_unit_zero hz]
  simp only [View.ld_unit_zero (S := S4000x64) hz, View.ld_unit_zero (S := S4000x128) hz, View.ld_unit_zero (S := S128x64) hz, View.ld_unit_zero (S := S1x64) hz, View.ld_unit_zero (S := S64x128) hz, View.ld_unit_zero (S := S1x128) hz, View.ld_unit_zero (S := S64x1) hz, View.ld_unit_zero (S := S1x1) hz]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  funext y
  obtain ⟨r, q, rfl⟩ : ∃ (r : Fin 4000) (q : Fin 64), y = ix2 r q := ⟨y 0, y 1, eq_ix2 y⟩
  show k1_pay2 (F := Ideal) (iblk1 V c 1 t) (iblk1 V c 2 t) (iblk1 V c 0 t) (iblk1 V c 3 t) (ix2 r q)
    = embArr (V c main_v38) (V c main_v26_0) (V c main_arg7) (V c main_v39) (((cfg1.win 10).blk t).view.emb (ix2 r q))
  have hN : grid1.N = 25 := N_1
  have ht : t.val < grid1.N := t.isLt
  have hr := r.isLt
  rw [emb_point V c t r q ⟨t.val * 4000 + r.val, by omega⟩ rfl]
  refine congrArg _ (funext fun a => Fin.ext ?_)
  match a with
  | ⟨0, _⟩ => show t.val * 4000 + r.val = win1_10.index t (0 : Fin 2) * 4000 + 1 * r.val; omega
  | ⟨1, _⟩ => show q.val = win1_10.index t (1 : Fin 2) * 64 + 1 * q.val; omega

/-- WHAT POINT `t` WRITES BACK to the probabilities' array is block `t` of `probArr`. -/
theorem flushed11_eq (c : Dev nD) (t : Fin cfg1.N) :
    (dat1 (F := Ideal) V c).flushed 11 t = ((cfg1.win 11).blk t).view.read (Elt Ideal)
      (probArr (V c main_v38) (V c main_v26_0) (V c main_arg7) (V c main_v39) (V c main_arg8) (V c main_v40) (V c main_arg10) (V c main_v41) (V c main_arg12) (V c main_v42)) := by
  show (cfg1.win 11).cut (grid1.coords t) ((dat1 (F := Ideal) V c).after 11 t) = _
  rw [after1_11]
  unfold out1_11
  rw [View.canon_unit_zero hz]
  simp only [View.ld_unit_zero (S := S4000x64) hz, View.ld_unit_zero (S := S4000x128) hz, View.ld_unit_zero (S := S128x64) hz, View.ld_unit_zero (S := S1x64) hz, View.ld_unit_zero (S := S64x128) hz, View.ld_unit_zero (S := S1x128) hz, View.ld_unit_zero (S := S64x1) hz, View.ld_unit_zero (S := S1x1) hz]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  funext y
  obtain ⟨r, q, rfl⟩ : ∃ (r : Fin 4000) (q : Fin 1), y = ix2 r q := ⟨y 0, y 1, eq_ix2 y⟩
  obtain rfl : q = 0 := Subsingleton.elim _ _
  show k1_pay1 (F := Ideal) (k1_pay3 (F := Ideal) (iblk1 V c 1 t) (iblk1 V c 2 t) (iblk1 V c 0 t) (iblk1 V c 3 t) (iblk1 V c 4 t) (iblk1 V c 5 t) (iblk1 V c 6 t) (iblk1 V c 7 t)) (iblk1 V c 8 t) (iblk1 V c 9 t) (ix2 r (0 : Fin 1))
    = probArr (V c main_v38) (V c main_v26_0) (V c main_arg7) (V c main_v39) (V c main_arg8) (V c main_v40) (V c main_arg10) (V c main_v41) (V c main_arg12) (V c main_v42) (((cfg1.win 11).blk t).view.emb (ix2 r (0 : Fin 1)))
  have hN : grid1.N = 25 := N_1
  have ht : t.val < grid1.N := t.isLt
  have hr := r.isLt
  rw [prob_point V c t r ⟨t.val * 4000 + r.val, by omega⟩ rfl]
  refine congrArg _ (funext fun a => Fin.ext ?_)
  match a with
  | ⟨0, _⟩ => show t.val * 4000 + r.val = win1_11.index t (0 : Fin 2) * 4000 + 1 * r.val; omega
  | ⟨1, _⟩ => show 0 = win1_11.index t (1 : Fin 2) * 1 + 1 * 0; omega

theorem mem_blk10 (t : Fin cfg1.N) (i : S100000x64.Idx) :
    i ∈ ((cfg1.win 10).blk t).view.set ↔ ∀ a : Fin 2, win1_10.index t a * S4000x64.size a ≤ (i a).val
      ∧ (i a).val < win1_10.index t a * S4000x64.size a + S4000x64.size a := by
  show i ∈ ((View.whole main_v43_0).slice (win1_10.rect t)).set ↔ _
  rw [View.set_slice_whole, Rect.mem_set_unit]
  exact Iff.rfl

theorem cover10 (i : S100000x64.Idx) : ∃ t : Fin cfg1.N, (cfg1.win 10).flush t = true ∧ i ∈ ((cfg1.win 10).blk t).view.set := by
  have hN : grid1.N = 25 := N_1
  have hi0 : (i 0).val < 100000 := (i 0).isLt
  have hi1 : (i 1).val < 64 := (i 1).isLt
  refine ⟨⟨(i 0).val / 4000, by show (i 0).val / 4000 < grid1.N; omega⟩, flush1_10 _, ?_⟩
  rw [mem_blk10]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ :=
    idx_facts ⟨(i 0).val / 4000, by show (i 0).val / 4000 < grid1.N; omega⟩
  intro a
  match a with
  | ⟨0, _⟩ =>
    show win1_10.index _ (0 : Fin 2) * 4000 ≤ (i 0).val ∧ (i 0).val < win1_10.index _ (0 : Fin 2) * 4000 + 4000
    rw [e10_0]; show (i 0).val / 4000 * 4000 ≤ (i 0).val ∧ (i 0).val < (i 0).val / 4000 * 4000 + 4000; omega
  | ⟨1, _⟩ =>
    show win1_10.index _ (1 : Fin 2) * 64 ≤ (i 1).val ∧ (i 1).val < win1_10.index _ (1 : Fin 2) * 64 + 64
    rw [e10_1]; omega

theorem mem_blk11 (t : Fin cfg1.N) (i : S100000x1.Idx) :
    i ∈ ((cfg1.win 11).blk t).view.set ↔ ∀ a : Fin 2, win1_11.index t a * S4000x1.size a ≤ (i a).val
      ∧ (i a).val < win1_11.index t a * S4000x1.size a + S4000x1.size a := by
  show i ∈ ((View.whole main_v43_1).slice (win1_11.rect t)).set ↔ _
  rw [View.set_slice_whole, Rect.mem_set_unit]
  exact Iff.rfl

theorem cover11 (i : S100000x1.Idx) : ∃ t : Fin cfg1.N, (cfg1.win 11).flush t = true ∧ i ∈ ((cfg1.win 11).blk t).view.set := by
  have hN : grid1.N = 25 := N_1
  have hi0 : (i 0).val < 100000 := (i 0).isLt
  have hi1 : (i 1).val < 1 := (i 1).isLt
  refine ⟨⟨(i 0).val / 4000, by show (i 0).val / 4000 < grid1.N; omega⟩, flush1_11 _, ?_⟩
  rw [mem_blk11]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ :=
    idx_facts ⟨(i 0).val / 4000, by show (i 0).val / 4000 < grid1.N; omega⟩
  intro a
  match a with
  | ⟨0, _⟩ =>
    show win1_11.index _ (0 : Fin 2) * 4000 ≤ (i 0).val ∧ (i 0).val < win1_11.index _ (0 : Fin 2) * 4000 + 4000
    rw [e11_0]; show (i 0).val / 4000 * 4000 ≤ (i 0).val ∧ (i 0).val < (i 0).val / 4000 * 4000 + 4000; omega
  | ⟨1, _⟩ =>
    show win1_11.index _ (1 : Fin 2) * 1 ≤ (i 1).val ∧ (i 1).val < win1_11.index _ (1 : Fin 2) * 1 + 1
    rw [e11_1]; omega

/-- THE EMBEDDINGS' ARRAY after the region. -/
theorem final10 (c : Dev nD) : (dat1 (F := Ideal) V c).arrAt 10 cfg1.N = embArr (V c main_v38) (V c main_v26_0) (V c main_arg7) (V c main_v39) :=
  (dat1 (F := Ideal) V c).arrAt_eq_of_cover 10 _ (fun t _ => flushed10_eq V c t) cover10

/-- THE PROBABILITIES' ARRAY after the region. -/
theorem final11 (c : Dev nD) : (dat1 (F := Ideal) V c).arrAt 11 cfg1.N = probArr (V c main_v38) (V c main_v26_0) (V c main_arg7) (V c main_v39) (V c main_arg8) (V c main_v40) (V c main_arg10) (V c main_v41) (V c main_arg12) (V c main_v42) :=
  (dat1 (F := Ideal) V c).arrAt_eq_of_cover 11 _ (fun t _ => flushed11_eq V c t) cover11

end Region

end Cert.Sage.Region1

end
-- ==== Proof.HostValues.lean ====
/-
  The contents of the buffers the two kernel regions read, as the host operations before each region leave them.

  The edge list's two rows are the edges' source and destination words. A node's degree is the count of the edges
  that land on it (an adding scatter of ones), clamped below by one; the features' rows at the edges' sources are
  gathered, added up per destination, and scaled by the reciprocal of the clamped degree: the averaged aggregate
  (`aggOf`). The same operations, on the same index words, aggregate the first region's projected features before the
  second region. Biases are re-laid from vectors to one-row matrices.
-/
import proofs.«125335_j11381663334735_2_alg».proof.Proof.Gen.KernelIdeal.Frame
import proofs.«125335_j11381663334735_2_alg».proof.Proof.Region1
import Idealize.ShloMosaic.Lib.StableHlo.Run
import Idealize.ShloMosaic.PureOps.Ideal.Laws

set_option maxRecDepth 16384

noncomputable section

namespace Cert.Sage.HostValues

open Cert.KernelIdeal Cert.KernelIdeal.Gen Cert.Sage Cert.Sage.Region0 Cert.Sage.Region1
open Idealize.ShloMosaic Idealize.ShloMosaic.TcCoe Idealize.SL.Sem Idealize.ShloMosaic.StableHlo

/-! ## The host operations' terms, named -/

/-- The edges' source words: row 0 of the edge list. -/
def srcW (ei : IVec S2x1600000 32) : IVec S1600000 32 :=
  shapeCast S1600000 (extractStridedSlice S1x1600000 ![0, 0] ei slices_S2x1600000_S1x1600000_0_0) shapeCasts_S1x1600000_S1600000
/-- The edges' destination words: row 1 of the edge list. -/
def dstW (ei : IVec S2x1600000 32) : IVec S1600000 32 :=
  shapeCast S1600000 (extractStridedSlice S1x1600000 ![1, 0] ei slices_S2x1600000_S1x1600000_1_0) shapeCasts_S1x1600000_S1600000
/-- The gather's column of start indices: a negative source word is moved up by the number of nodes. -/
def srcCol (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)
/-- The scatter's column of destination indices. -/
def dstCol (d : IVec S1600000 32) : IVec S1600000x1 32 := broadcastInDim S1600000x1 ![0] bcast_S1600000_S1600000x1_0 d
/-- The clamped degrees: the count of the edges landing on each node, at least one. -/
def degArr (d : IVec S1600000 32) : FVec Ideal S100000 .f32 :=
  maximumf
    (Host.scatterAdd scatter_S100000_S1600000x1_S1600000_n_0_0_1
      (broadcastInDim S100000 ![] bcast_S_S100000 (constant S_ .f32 0x00000000#32)) (dstCol d)
      (broadcastInDim S1600000 ![] bcast_S_S1600000 (constant S_ .f32 0x3F800000#32)))
    (broadcastInDim S100000 ![] bcast_S_S100000 (constant S_ .f32 0x3F800000#32))
/-- Their reciprocals, as a column. -/
def invDeg (d : IVec S1600000 32) : FVec Ideal S100000x1 .f32 :=
  shapeCast S100000x1 (Host.divf (broadcastInDim S100000 ![] bcast_S_S100000 (constant S_ .f32 0x3F800000#32)) (degArr d))
    shapeCasts_S100000_S100000x1
/-- The averaged aggregate of a table of 64-wide rows. -/
def aggOf (X : FVec Ideal S100000x64 .f32) (s d : IVec S1600000 32) (inv : FVec Ideal S100000x1 .f32) :
    FVec Ideal S100000x64 .f32 :=
  mulf
    (Host.scatterAdd scatter_S100000x64_S1600000x1_S1600000x64_1_0_0_1
      (broadcastInDim S100000x64 ![] bcast_S_S100000x64 (constant S_ .f32 0x00000000#32)) (dstCol d)
      (Host.gather gather_S100000x64_S1600000x1_S1600000x64_1_0_n_n_0_1_164 X (srcCol s)))
    (broadcastInDim S100000x64 ![0, 1] bcast_S100000x1_S100000x64_0_1 inv)

variable (m : (ℓ : Loc nD τ sig) → Buf (Elt Ideal) ℓ) (ρ : Dev nD → PrngReg) (c : Dev nD)

/-! ## At the first region's entry -/

set_option maxHeartbeats 2000000 in
theorem V1_src : V1 m ρ c main_v1 = srcW (m ((c : Thread nD τ).loc main_arg1)) := by
  show StableHlo.after (hostOps0 (F := Ideal)) (W0 m ρ c) (Proc.devRef .tc main_v1) = _
  after_results_simp; rfl
set_option maxHeartbeats 2000000 in
theorem V1_dst : V1 m ρ c main_v3 = dstW (m ((c : Thread nD τ).loc main_arg1)) := by
  show StableHlo.after (hostOps0 (F := Ideal)) (W0 m ρ c) (Proc.devRef .tc main_v3) = _
  after_results_simp; rfl
set_option maxHeartbeats 2000000 in
theorem V1_inv : V1 m ρ c main_v12 = invDeg (dstW (m ((c : Thread nD τ).loc main_arg1))) := by
  show StableHlo.after (hostOps0 (F := Ideal)) (W0 m ρ c) (Proc.devRef .tc main_v12) = _
  after_results_simp; rfl
set_option maxHeartbeats 2000000 in
theorem V1_agg : V1 m ρ c main_v24 = aggOf (m ((c : Thread nD τ).loc main_arg0)) (srcW (m ((c : Thread nD τ).loc main_arg1)))
    (dstW (m ((c : Thread nD τ).loc main_arg1))) (invDeg (dstW (m ((c : Thread nD τ).loc main_arg1)))) := by
  show StableHlo.after (hostOps0 (F := Ideal)) (W0 m ρ c) (Proc.devRef .tc main_v24) = _
  after_results_simp; rfl
set_option maxHeartbeats 2000000 in
theorem V1_bias : V1 m ρ c main_v25 = shapeCast S1x128 (m ((c : Thread nD τ).loc main_arg3)) shapeCasts_S128_S1x128 := by
  show StableHlo.after (hostOps0 (F := Ideal)) (W0 m ρ c) (Proc.devRef .tc main_v25) = _
  after_results_simp; rfl
set_option maxHeartbeats 2000000 in
theorem V1_arg0 : V1 m ρ c main_arg0 = m ((c : Thread nD τ).loc main_arg0) := by
  show StableHlo.after (hostOps0 (F := Ideal)) (W0 m ρ c) (Proc.devRef .tc main_arg0) = _
  after_results_simp
set_option maxHeartbeats 2000000 in
theorem V1_arg2 : V1 m ρ c main_arg2 = m ((c : Thread nD τ).loc main_arg2) := by
  show StableHlo.after (hostOps0 (F := Ideal)) (W0 m ρ c) (Proc.devRef .tc main_arg2) = _
  after_results_simp
set_option maxHeartbeats 2000000 in
theorem V1_arg4 : V1 m ρ c main_arg4 = m ((c : Thread nD τ).loc main_arg4) := by
  show StableHlo.after (hostOps0 (F := Ideal)) (W0 m ρ c) (Proc.devRef .tc main_arg4) = _
  after_results_simp
set_option maxHeartbeats 2000000 in
theorem V1_arg5 : V1 m ρ c main_arg5 = m ((c : Thread nD τ).loc main_arg5) := by
  show StableHlo.after (hostOps0 (F := Ideal)) (W0 m ρ c) (Proc.devRef .tc main_arg5) = _
  after_results_simp
set_option maxHeartbeats 2000000 in
theorem V1_arg6 : V1 m ρ c main_arg6 = m ((c : Thread nD τ).loc main_arg6) := by
  show StableHlo.after (hostOps0 (F := Ideal)) (W0 m ρ c) (Proc.devRef .tc main_arg6) = _
  after_results_simp
set_option maxHeartbeats 2000000 in
theorem V1_arg7 : V1 m ρ c main_arg7 = m ((c : Thread nD τ).loc main_arg7) := by
  show StableHlo.after (hostOps0 (F := Ideal)) (W0 m ρ c) (Proc.devRef .tc main_arg7) = _
  after_results_simp
set_option maxHeartbeats 2000000 in
theorem V1_arg8 : V1 m ρ c main_arg8 = m ((c : Thread nD τ).loc main_arg8) := by
  show StableHlo.after (hostOps0 (F := Ideal)) (W0 m ρ c) (Proc.devRef .tc main_arg8) = _
  after_results_simp
set_option maxHeartbeats 2000000 in
theorem V1_arg9 : V1 m ρ c main_arg9 = m ((c : Thread nD τ).loc main_arg9) := by
  show StableHlo.after (hostOps0 (F := Ideal)) (W0 m ρ c) (Proc.devRef .tc main_arg9) = _
  after_results_simp
set_option maxHeartbeats 2000000 in
theorem V1_arg10 : V1 m ρ c main_arg10 = m ((c : Thread nD τ).loc main_arg10) := by
  show StableHlo.after (hostOps0 (F := Ideal)) (W0 m ρ c) (Proc.devRef .tc main_arg10) = _
  after_results_simp
set_option maxHeartbeats 2000000 in
theorem V1_arg11 : V1 m ρ c main_arg11 = m ((c : Thread nD τ).loc main_arg11) := by
  show StableHlo.after (hostOps0 (F := Ideal)) (W0 m ρ c) (Proc.devRef .tc main_arg11) = _
  after_results_simp
set_option maxHeartbeats 2000000 in
theorem V1_arg12 : V1 m ρ c main_arg12 = m ((c : Thread nD τ).loc main_arg12) := by
  show StableHlo.after (hostOps0 (F := Ideal)) (W0 m ρ c) (Proc.devRef .tc main_arg12) = _
  after_results_simp
set_option maxHeartbeats 2000000 in
theorem V1_arg13 : V1 m ρ c main_arg13 = m ((c : Thread nD τ).loc main_arg13) := by
  show StableHlo.after (hostOps0 (F := Ideal)) (W0 m ρ c) (Proc.devRef .tc main_arg13) = _
  after_results_simp

/-- The first region's two output arrays, from the arguments. -/
theorem W2_hid : W2 m ρ c (Proc.devRef .tc main_v26_0)
    = hidArr (V1 m ρ c main_v24) (m ((c : Thread nD τ).loc main_arg0)) (m ((c : Thread nD τ).loc main_arg2))
        (m ((c : Thread nD τ).loc main_arg4)) (V1 m ρ c main_v25) := by
  rw [← V1_arg0 m ρ c, ← V1_arg2 m ρ c, ← V1_arg4 m ρ c]
  exact (W2_arr m ρ c 6).trans (final6 (V1 m ρ) c)
theorem W2_proj : W2 m ρ c (Proc.devRef .tc main_v26_1)
    = projArr (V1 m ρ c main_v24) (m ((c : Thread nD τ).loc main_arg0)) (m ((c : Thread nD τ).loc main_arg2))
        (m ((c : Thread nD τ).loc main_arg4)) (V1 m ρ c main_v25) (m ((c : Thread nD τ).loc main_arg5)) := by
  rw [← V1_arg0 m ρ c, ← V1_arg2 m ρ c, ← V1_arg4 m ρ c, ← V1_arg5 m ρ c]
  exact (W2_arr m ρ c 7).trans (final7 (V1 m ρ) c)

/-- The other buffers come through the first region unchanged. -/
theorem W2_src : W2 m ρ c (Proc.devRef .tc main_v1) = srcW (m ((c : Thread nD τ).loc main_arg1)) :=
  (W2_of_ne m ρ c main_v1 (by decide)).trans (V1_src m ρ c)
theorem W2_dst : W2 m ρ c (Proc.devRef .tc main_v3) = dstW (m ((c : Thread nD τ).loc main_arg1)) :=
  (W2_of_ne m ρ c main_v3 (by decide)).trans (V1_dst m ρ c)
theorem W2_inv : W2 m ρ c (Proc.devRef .tc main_v12) = invDeg (dstW (m ((c : Thread nD τ).loc main_arg1))) :=
  (W2_of_ne m ρ c main_v12 (by decide)).trans (V1_inv m ρ c)
theorem W2_arg6 : W2 m ρ c (Proc.devRef .tc main_arg6) = m ((c : Thread nD τ).loc main_arg6) :=
  (W2_of_ne m ρ c main_arg6 (by decide)).trans (V1_arg6 m ρ c)
theorem W2_arg7 : W2 m ρ c (Proc.devRef .tc main_arg7) = m ((c : Thread nD τ).loc main_arg7) :=
  (W2_of_ne m ρ c main_arg7 (by decide)).trans (V1_arg7 m ρ c)
theorem W2_arg8 : W2 m ρ c (Proc.devRef .tc main_arg8) = m ((c : Thread nD τ).loc main_arg8) :=
  (W2_of_ne m ρ c main_arg8 (by decide)).trans (V1_arg8 m ρ c)
theorem W2_arg9 : W2 m ρ c (Proc.devRef .tc main_arg9) = m ((c : Thread nD τ).loc main_arg9) :=
  (W2_of_ne m ρ c main_arg9 (by decide)).trans (V1_arg9 m ρ c)
theorem W2_arg10 : W2 m ρ c (Proc.devRef .tc main_arg10) = m ((c : Thread nD τ).loc main_arg10) :=
  (W2_of_ne m ρ c main_arg10 (by decide)).trans (V1_arg10 m ρ c)
theorem W2_arg11 : W2 m ρ c (Proc.devRef .tc main_arg11) = m ((c : Thread nD τ).loc main_arg11) :=
  (W2_of_ne m ρ c main_arg11 (by decide)).trans (V1_arg11 m ρ c)
theorem W2_arg12 : W2 m ρ c (Proc.devRef .tc main_arg12) = m ((c : Thread nD τ).loc main_arg12) :=
  (W2_of_ne m ρ c main_arg12 (by decide)).trans (V1_arg12 m ρ c)
theorem W2_arg13 : W2 m ρ c (Proc.devRef .tc main_arg13) = m ((c : Thread nD τ).loc main_arg13) :=
  (W2_of_ne m ρ c main_arg13 (by decide)).trans (V1_arg13 m ρ c)

/-! ## At the second region's entry -/

set_option maxHeartbeats 2000000 in
theorem V3_agg : V3 m ρ c main_v38 = aggOf (W2 m ρ c (Proc.devRef .tc main_v26_1)) (W2 m ρ c (Proc.devRef .tc main_v1))
    (W2 m ρ c (Proc.devRef .tc main_v3)) (W2 m ρ c (Proc.devRef .tc main_v12)) := by
  show StableHlo.after (hostOps1 (F := Ideal)) (W2 m ρ c) (Proc.devRef .tc main_v38) = _
  after_results_simp; rfl
set_option maxHeartbeats 2000000 in
theorem V3_hid : V3 m ρ c main_v26_0 = W2 m ρ c (Proc.devRef .tc main_v26_0) := by
  show StableHlo.after (hostOps1 (F := Ideal)) (W2 m ρ c) (Proc.devRef .tc main_v26_0) = _
  after_results_simp
set_option maxHeartbeats 2000000 in
theorem V3_v39 : V3 m ρ c main_v39 = shapeCast S1x64 (m ((c : Thread nD τ).loc main_arg6)) shapeCasts_S64_S1x64 := by
  rw [← W2_arg6 m ρ c]
  show StableHlo.after (hostOps1 (F := Ideal)) (W2 m ρ c) (Proc.devRef .tc main_v39) = _
  after_results_simp; rfl
set_option maxHeartbeats 2000000 in
theorem V3_v40 : V3 m ρ c main_v40 = shapeCast S1x128 (m ((c : Thread nD τ).loc main_arg9)) shapeCasts_S128_S1x128 := by
  rw [← W2_arg9 m ρ c]
  show StableHlo.after (hostOps1 (F := Ideal)) (W2 m ρ c) (Proc.devRef .tc main_v40) = _
  after_results_simp; rfl
set_option maxHeartbeats 2000000 in
theorem V3_v41 : V3 m ρ c main_v41 = shapeCast S1x64 (m ((c : Thread nD τ).loc main_arg11)) shapeCasts_S64_S1x64 := by
  rw [← W2_arg11 m ρ c]
  show StableHlo.after (hostOps1 (F := Ideal)) (W2 m ρ c) (Proc.devRef .tc main_v41) = _
  after_results_simp; rfl
set_option maxHeartbeats 2000000 in
theorem V3_v42 : V3 m ρ c main_v42 = shapeCast S1x1 (m ((c : Thread nD τ).loc main_arg13)) shapeCasts_S1_S1x1 := by
  rw [← W2_arg13 m ρ c]
  show StableHlo.after (hostOps1 (F := Ideal)) (W2 m ρ c) (Proc.devRef .tc main_v42) = _
  after_results_simp; rfl
set_option maxHeartbeats 2000000 in
theorem V3_arg7 : V3 m ρ c main_arg7 = m ((c : Thread nD τ).loc main_arg7) := by
  rw [← W2_arg7 m ρ c]
  show StableHlo.after (hostOps1 (F := Ideal)) (W2 m ρ c) (Proc.devRef .tc main_arg7) = _
  after_results_simp
set_option maxHeartbeats 2000000 in
theorem V3_arg8 : V3 m ρ c main_arg8 = m ((c : Thread nD τ).loc main_arg8) := by
  rw [← W2_arg8 m ρ c]
  show StableHlo.after (hostOps1 (F := Ideal)) (W2 m ρ c) (Proc.devRef .tc main_arg8) = _
  after_results_simp
set_option maxHeartbeats 2000000 in
theorem V3_arg10 : V3 m ρ c main_arg10 = m ((c : Thread nD τ).loc main_arg10) := by
  rw [← W2_arg10 m ρ c]
  show StableHlo.after (hostOps1 (F := Ideal)) (W2 m ρ c) (Proc.devRef .tc main_arg10) = _
  after_results_simp
set_option maxHeartbeats 2000000 in
theorem V3_arg12 : V3 m ρ c main_arg12 = m ((c : Thread nD τ).loc main_arg12) := by
  rw [← W2_arg12 m ρ c]
  show StableHlo.after (hostOps1 (F := Ideal)) (W2 m ρ c) (Proc.devRef .tc main_arg12) = _
  after_results_simp

end Cert.Sage.HostValues

end
-- ==== Proof.KernelRun.lean ====
/-
  The idealized kernel's run with its two results named. The program is two kernel regions among stretches of host
  operations. Its buffers' contents at each boundary are a fold from the launch memory: the first stretch's
  operations applied (`W1`), the first region's arrays at what its grid points wrote back (`W2`), the second
  stretch's operations (`W3`), the second region's arrays (`W4`). Every weakly fair execution terminates, without a
  fault, with every unscoped buffer at `W4`; read here at the two result buffers beside the fourteen arguments.
-/
import proofs.«125335_j11381663334735_2_alg».proof.Proof.Gen.KernelIdeal.Frame

set_option maxRecDepth 16384

noncomputable section

namespace Cert.Sage.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main ends, nothing faulting, with the embeddings' buffer and the
    probabilities' buffer at the last boundary's contents and the argument arrays as launched. -/
theorem run_main : θ_run defs (onTc (τ := τ) (main (F := F))) ⟨m, fun _ => 0, ρ⟩ (fun r => ∀ c : Dev nD,
      r.2.mem ((c.tc : Thread nD τ).loc main_v43_0) = W4 m ρ c (Proc.devRef .tc main_v43_0)
      ∧ r.2.mem ((c.tc : Thread nD τ).loc main_v43_1) = W4 m ρ c (Proc.devRef .tc main_v43_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v43_0 (by decide)),
       h c _ (mem_uc main_v43_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c)⟩)

/-- The embeddings' buffer is the second region's output window 10, the probabilities' its window 11: at the last
    boundary each holds what that window's grid points wrote back. -/
theorem W4_emb (c : Dev nD) : W4 m ρ c (Proc.devRef .tc main_v43_0) = (dat1 (V3 m ρ) c).arrAt 10 cfg1.N := W4_arr m ρ c 10
theorem W4_prob (c : Dev nD) : W4 m ρ c (Proc.devRef .tc main_v43_1) = (dat1 (V3 m ρ) c).arrAt 11 cfg1.N := W4_arr m ρ c 11

end Cert.Sage.KernelRun

end
-- ==== Proof.LibGatherFlatRows.lean ====
/-
  A `stablehlo.gather` that takes whole rows of an `[N, D]` table at a column `[E, 1]` of start indices — what
  `table[idx]` lowers to for a flat index array: offset_dims `[1]`, collapsed_slice_dims `[0]`, start_index_map
  `[0]`, index_vector_dim `1`, slice_sizes `[1, D]`. Result entry `(e, d)` is column `d` of the row named by start
  index `e`, read as a signed integer and clamped into `[0, N − 1]`. General over the extents and the element type.
-/
import Idealize.ShloMosaic.Lib.ValueIdx

noncomputable section

namespace Cert.LibGatherFlatRows

open Idealize.ShloMosaic Idealize.ShloMosaic.ValueIdx

variable {α : Type}

/-- Those dimension numbers for a table `[N, D]`, start indices `[E, 1]` and result `[E, D]`; their conditions `wf` are
    decided on a program's literal shapes. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row a start index names: the index word read signed, clamped into `[0, N − 1]`. -/
def rowOf {w : Nat} (N : Nat) (hN : 0 < N) (b : BitVec w) : Fin N := ⟨min b.toInt.toNat (N - 1), by omega⟩

/-- An axis of a rank-2 shape is its first or its second. -/
private theorem axis_cases (a : Fin 2) : a = 0 ∨ a = 1 := by fin_cases a <;> simp

/-- THE GATHER READ AT `(e, d)`: column `d` of the row the start index `idx[e, 0]` names. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (d : Fin D) :
    Host.gather (rowDims N D E wf) x idx (ix2 e d) = x (ix2 (rowOf N hN (idx (ix2 e (0 : Fin 1)))) d) := by
  unfold Host.gather
  congr 1
  funext a
  refine Fin.ext ?_
  show (rowDims N D E wf).start (ix2 e d) idx a + (rowDims N D E wf).batchCoord (ix2 e d) a
      + (rowDims N D E wf).offCoord (ix2 e d) a = _
  rw [GatherDims.batchCoord_eq_zero _ _ _ List.not_mem_nil]
  rcases axis_cases a with rfl | rfl
  ·
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D E wf).startIndexMap from List.mem_singleton.mpr rfl)]
    have hsi : (rowDims N D E wf).siIdx (ix2 e d) ⟨List.idxOf (0 : Fin 2) (rowDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  ·
    unfold GatherDims.start
    rw [dif_neg (show (1 : Fin 2) ∉ (rowDims N D E wf).startIndexMap from
      fun h => absurd (congrArg Fin.val (List.mem_singleton.mp h)) Nat.one_ne_zero)]
    simp only [Nat.zero_add]
    have hk : (1 : Fin 2) ∈ (rowDims N D E wf).sKept :=
      ((rowDims N D E wf).mem_sKept 1).mpr
        ⟨fun h => absurd (congrArg Fin.val (List.mem_singleton.mp h)) Nat.one_ne_zero, List.not_mem_nil⟩
    unfold GatherDims.offCoord
    rw [dif_pos hk]
    rfl

/-- The row does not depend on the column read: two such gathers at one column of start indices, of tables with the
    same number of rows, read the same row. -/
theorem gather_rows_row {N D D' E w : Nat} (hN : 0 < N)
    (wf : GatherDims.WF ⟨2, ![N, D]⟩ ⟨2, ![E, 1]⟩ ⟨2, ![E, D]⟩ [1] [0] [] [0] [] 1 ![1, D])
    (wf' : GatherDims.WF ⟨2, ![N, D']⟩ ⟨2, ![E, 1]⟩ ⟨2, ![E, D']⟩ [1] [0] [] [0] [] 1 ![1, D'])
    (x : (⟨2, ![N, D]⟩ : Shape).Idx → α) (x' : (⟨2, ![N, D']⟩ : Shape).Idx → α) (idx : IVec ⟨2, ![E, 1]⟩ w)
    (e : Fin E) (d : Fin D) (d' : Fin D') :
    ∃ r : Fin N, Host.gather (rowDims N D E wf) x idx (ix2 e d) = x (ix2 r d)
      ∧ Host.gather (rowDims N D' E wf') x' idx (ix2 e d') = x' (ix2 r d') :=
  ⟨rowOf N hN (idx (ix2 e (0 : Fin 1))), gather_rows_apply hN wf x idx e d, gather_rows_apply hN wf' x' idx e d'⟩

end Cert.LibGatherFlatRows

end
-- ==== Proof.LibSegSum.lean ====
/-
  Three host operations on rows and flat index arrays, read at an entry; general over the extents.

  * A `stablehlo.scatter` with an adding body of float rows into an `[N, D]` operand at a column `[E, 1]` of
    destination indices (update_window_dims `[1]`, inserted_window_dims `[0]`, scatter_dims_to_operand_dims `[0]`,
    index_vector_dim `1`; what a segment sum lowers to), on the extended reals: entry `(n, k)` is the operand's entry
    plus the sum over the updates `e` whose index word read signed is `n` of the update's entry `(e, k)`.
  * A `stablehlo.gather` of single elements of a flat array `[M]` at a column `[E, 1]` of start indices
    (collapsed_slice_dims `[0]`, start_index_map `[0]`, index_vector_dim `1`, slice_sizes `[1]`; what `a[idx]` lowers
    to for flat arrays): entry `e` is the element the index word names, read signed and clamped into `[0, M − 1]`.
  * The second result of a stable sort of a key array carrying the iota of positions (an argsort): a bijection of the
    positions, as words.
-/
import Idealize.ShloMosaic.Lib.ValueIdx
import Idealize.ShloMosaic.Lib.SortFacts
import Idealize.ShloMosaic.PureOps.Ideal.Laws
import proofs.«125335_j11381663334735_2_alg».proof.Proof.LibGatherFlatRows

noncomputable section

namespace Cert.LibSegSum

open Idealize.ShloMosaic Idealize.ShloMosaic.ValueIdx

/-- The scatter's dimension numbers for an operand `[N, D]`, indices `[E, 1]` and updates `[E, D]`. -/
abbrev rowsDims (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An axis of a rank-2 shape is its first or its second. -/
private theorem axis_cases (a : Fin 2) : a = 0 ∨ a = 1 := by fin_cases a <;> simp

/-- A 32-bit word of a number below `2 ^ 31` reads that number, signed. -/
private theorem toInt_ofNat_lt {v : Nat} (hv : v < 2 ^ 31) : (BitVec.ofNat 32 v).toInt = (v : Int) := by
  rw [BitVec.toInt_eq_toNat_cond, BitVec.toNat_ofNat]
  have hm : v % 2 ^ 32 = v := Nat.mod_eq_of_lt (by omega)
  rw [hm]
  split <;> omega

section Rows
variable {N D E w : Nat} (wf : ScatterDims.WF ⟨2, ![N, D]⟩ ⟨2, ![E, 1]⟩ ⟨2, ![E, D]⟩ [1] [0] [0] 1)
  (idx : IVec ⟨2, ![E, 1]⟩ w) (e : Fin E) (k' : Fin D)

/-- The window of update `(e, k')` starts, on the row axis, at the index word `idx[e, 0]` read signed … -/
private theorem start_row :
    (rowsDims N D E wf).start (ix2 e k') idx (0 : Fin 2) = (idx (ix2 e (0 : Fin 1))).toInt := by
  unfold ScatterDims.start
  rw [dif_pos (show (0 : Fin 2) ∈ (rowsDims N D E wf).scatterDimsToOperandDims from List.mem_singleton.mpr rfl)]
  have hsi : (rowsDims N D E wf).siIdx (ix2 e k') ⟨List.idxOf (0 : Fin 2) (rowsDims N D E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and, on the column axis, at `0`. -/
private theorem start_col : (rowsDims N D E wf).start (ix2 e k') idx (1 : Fin 2) = 0 := by
  unfold ScatterDims.start
  rw [dif_neg (show (1 : Fin 2) ∉ (rowsDims N D E wf).scatterDimsToOperandDims from
    fun h => absurd (congrArg Fin.val (List.mem_singleton.mp h)) Nat.one_ne_zero)]

/-- Its window coordinate is `0` on the row axis, an inserted one … -/
private theorem window_row : (rowsDims N D E wf).window (ix2 e k') (0 : Fin 2) = 0 := by
  unfold ScatterDims.window
  rw [dif_neg (show (0 : Fin 2) ∉ (rowsDims N D E wf).sKept from by
    simp [ScatterDims.sKept, Shape.kept])]

/-- … and the update's column on the column axis. -/
private theorem window_col : (rowsDims N D E wf).window (ix2 e k') (1 : Fin 2) = k'.val := by
  have hk : (1 : Fin 2) ∈ (rowsDims N D E wf).sKept := by
    simp [ScatterDims.sKept, Shape.kept]
  unfold ScatterDims.window
  rw [dif_pos hk]
  rfl

/-- Update `(e, k')` lands at `(n, k)` exactly when its index word read signed is `n` and `k' = k`. -/
private theorem resultIdx_rows (n : Fin N) (k : Fin D) :
    (rowsDims N D E wf).resultIdx? (ix2 e k') idx = some (ix2 n k)
      ↔ (idx (ix2 e (0 : Fin 1))).toInt = (n.val : Int) ∧ k' = k := by
  have hs0 := start_row wf idx e k'
  have hs1 := start_col wf idx e k'
  have hw0 := window_row wf e k'
  have hw1 := window_col wf e k'
  unfold ScatterDims.resultIdx?
  split
  · rename_i h
    rw [Option.some.injEq]
    constructor
    · intro hEq
      have h0 := congrArg Fin.val (congrFun hEq (0 : Fin 2))
      have h1 := congrArg Fin.val (congrFun hEq (1 : Fin 2))
      have hb := (h (0 : Fin 2)).1
      simp only [hs0, hw0] at h0 hb
      simp only [hs1, hw1] at h1
      refine ⟨?_, Fin.ext ?_⟩
      · have : ((idx (ix2 e (0 : Fin 1))).toInt + ((0 : Nat) : Int)).toNat = n.val := h0
        omega
      · have : ((0 : Int) + (k'.val : Int)).toNat = k.val := h1
        omega
    · rintro ⟨hn, rfl⟩
      funext a
      refine Fin.ext ?_
      rcases axis_cases a with rfl | rfl
      · show ((rowsDims N D E wf).start (ix2 e k') idx (0 : Fin 2) + ((rowsDims N D E wf).window (ix2 e k') (0 : Fin 2) : Int)).toNat = n.val
        rw [hs0, hw0, hn]; omega
      · show ((rowsDims N D E wf).start (ix2 e k') idx (1 : Fin 2) + ((rowsDims N D E wf).window (ix2 e k') (1 : Fin 2) : Int)).toNat = k'.val
        rw [hs1, hw1]; omega
  · rename_i h
    constructor
    · intro hEq; exact absurd hEq (by simp)
    · rintro ⟨hn, rfl⟩
      refine absurd (fun a => ?_) h
      rcases axis_cases a with rfl | rfl
      · rw [hs0, hw0, hn]
        have := n.isLt
        show (0 : Int) ≤ (n.val : Int) + ((0 : Nat) : Int) ∧ (n.val : Int) + ((0 : Nat) : Int) < ((N : Nat) : Int)
        omega
      · rw [hs1, hw1]
        have := k'.isLt
        show (0 : Int) ≤ (0 : Int) + (k'.val : Int) ∧ (0 : Int) + (k'.val : Int) < ((D : Nat) : Int)
        omega

end Rows

/-- THE ADDING SCATTER OF ROWS AT `(n, k)`, on the extended reals. -/
theorem scatterAdd_rows_apply {N D E w : Nat}
    (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32)
    (n : Fin N) (k : Fin D) :
    Host.scatterAdd (rowsDims N D E wf) x idx upd (ix2 n k)
      = x (ix2 n k) + ∑ e : Fin E, if (idx (ix2 e (0 : Fin 1))).toInt = (n.val : Int) then upd (ix2 e k) else 0 := by
  show x (ix2 n k) + ∑ j ∈ Finset.univ.filter (fun j => (rowsDims N D E wf).resultIdx? j idx = some (ix2 n k)), upd j = _
  congr 1
  rw [Finset.sum_filter, sum_idx2]
  refine Finset.sum_congr rfl fun e _ => ?_
  by_cases hn : (idx (ix2 e (0 : Fin 1))).toInt = (n.val : Int)
  · rw [if_pos hn, Finset.sum_eq_single k]
    · exact if_pos ((resultIdx_rows wf idx e k n k).mpr ⟨hn, rfl⟩)
    · intro k' _ hk
      exact if_neg fun h => hk ((resultIdx_rows wf idx e k' n k).mp h).2
    · intro h; exact absurd (Finset.mem_univ k) h
  · rw [if_neg hn]
    exact Finset.sum_eq_zero fun k' _ => if_neg fun h => hn ((resultIdx_rows wf idx e k' n k).mp h).1

/-- The gather's dimension numbers for a flat array `[M]`, indices `[E, 1]` and result `[E]`. -/
abbrev flatDims (M E : Nat) (wf : GatherDims.WF ⟨1, ![M]⟩ ⟨2, ![E, 1]⟩ ⟨1, ![E]⟩ [] [0] [] [0] [] 1 ![1]) :
    GatherDims ⟨1, ![M]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER AT `e`: the element the start index `idx[e, 0]` names. -/
theorem gather_flat_apply {α : Type} {M E w : Nat} (hM : 0 < M)
    (wf : GatherDims.WF ⟨1, ![M]⟩ ⟨2, ![E, 1]⟩ ⟨1, ![E]⟩ [] [0] [] [0] [] 1 ![1])
    (x : (⟨1, ![M]⟩ : Shape).Idx → α) (idx : IVec ⟨2, ![E, 1]⟩ w) (e : Fin E) :
    Host.gather (flatDims M E wf) x idx (ix1 e)
      = x (ix1 (Cert.LibGatherFlatRows.rowOf M hM (idx (ix2 e (0 : Fin 1))))) := by
  unfold Host.gather
  congr 1
  funext a
  obtain rfl : a = 0 := Subsingleton.elim _ _
  refine Fin.ext ?_
  show (flatDims M E wf).start (ix1 e) idx 0 + (flatDims M E wf).batchCoord (ix1 e) 0
      + (flatDims M E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims M E wf).startIndexMap from List.mem_singleton.mpr rfl)]
  have hsi : (flatDims M E wf).siIdx (ix1 e) ⟨List.idxOf (0 : Fin 1) (flatDims M E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On a rank-1 shape the second result of a two-operand stable sort along the one axis reads its operand through
    ONE self-map of the positions: the stable sorting permutation of the comparator on the pairs of words. -/
private theorem sort2_snd_rank1 {α β : Type} {E : Nat} (cmp : α × β → α × β → BitVec 1)
    (x : (⟨1, ![E]⟩ : Shape).Idx → α) (y : (⟨1, ![E]⟩ : Shape).Idx → β) (j : (⟨1, ![E]⟩ : Shape).Idx) :
    (Host.sort2 ⟨1, ![E]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- AN ARGSORT IS A BIJECTION OF THE POSITIONS: the second result of the stable sort, along its one axis, of any key
    array `x` paired with the iota of positions is `e ↦ the word of σ e` for a bijection `σ` of `Fin E`. -/
theorem sort2_iota_bijective {α : Type} {E : Nat} (cmp : α × BitVec 32 → α × BitVec 32 → BitVec 1)
    (x : (⟨1, ![E]⟩ : Shape).Idx → α) :
    ∃ σ : Fin E → Fin E, Function.Bijective σ ∧
      ∀ e : Fin E, (Host.sort2 ⟨1, ![E]⟩ 0 cmp x (iotaInDim ⟨1, ![E]⟩ 32 (0 : Fin 1))).2 (ix1 e)
        = BitVec.ofNat 32 (σ e).val := by
  refine ⟨sortedFrom (fun k k' => cmp (x (Shape.Idx.ofFin k), iotaInDim ⟨1, ![E]⟩ 32 (0 : Fin 1) (Shape.Idx.ofFin k))
      (x (Shape.Idx.ofFin k'), iotaInDim ⟨1, ![E]⟩ 32 (0 : Fin 1) (Shape.Idx.ofFin k')) == 1#1),
    ⟨sortedFrom_injective _, sortedFrom_surjective _⟩, fun e => ?_⟩
  rw [sort2_snd_rank1]
  rfl

/-- The word of a position below `2 ^ 31` is not negative read signed … -/
theorem not_slt_zero_ofNat {v : Nat} (hv : v < 2 ^ 31) : IntOp.cmpi .slt (BitVec.ofNat 32 v) 0#32 = 0#1 := by
  have h : (BitVec.ofNat 32 v).slt 0#32 = false := by
    rw [Bool.eq_false_iff, ne_eq, BitVec.slt_iff_toInt_lt, toInt_ofNat_lt hv]
    simp
  show BitVec.ofBool ((BitVec.ofNat 32 v).slt 0#32) = 0#1
  rw [h]
  rfl

/-- … and names that position: read signed and clamped into `[0, M − 1]` it is `v` when `v < M`. -/
theorem rowOf_ofNat {M v : Nat} (hM : 0 < M) (hv : v < M) (hM31 : M ≤ 2 ^ 31) :
    Cert.LibGatherFlatRows.rowOf M hM (BitVec.ofNat 32 v) = ⟨v, hv⟩ := by
  refine Fin.ext ?_
  show min (BitVec.ofNat 32 v).toInt.toNat (M - 1) = v
  rw [toInt_ofNat_lt (lt_of_lt_of_le hv hM31), Int.toNat_natCast]
  omega

end Cert.LibSegSum

end
-- ==== Proof.LibHostRows.lean ====
/-
  The host's keep-dimension broadcasts and its row sum, read at an entry, for any extents.

  `jnp` writes `v[:, None]` as a `broadcast_in_dim` of an `[a]` vector into an `[a, 1]` column (the vector's axis sent
  to axis 0), repeats such a column along `b` columns by a `broadcast_in_dim` with the identity axis map, writes a bias
  `[b]` as a `[1, b]` row (the vector's axis sent to axis 1) and repeats that row down `a` rows. Each, read at an
  entry, is the operand at the evident entry. A host sum over the second axis of an `[a, b]` matrix, read at row `r`
  on the extended reals, is the initial value plus the sum of that row's entries.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostRows

open Idealize.ShloMosaic Idealize.ShloMosaic.ValueIdx

variable {α : Type}

/-- An `[a]` vector broadcast into the column `[a, 1]` reads, at `(r, u)`, the vector at `r`. -/
theorem bcast_a_a1_at {a : ℕ} (dims : Fin (⟨1, ![a]⟩ : Shape).rank → Fin (⟨2, ![a, 1]⟩ : Shape).rank) (hd : dims 0 = 0)
    (h : (⟨1, ![a]⟩ : Shape).BroadcastsInDim ⟨2, ![a, 1]⟩ dims) (x : (⟨1, ![a]⟩ : Shape).Idx → α) (r : Fin a) (u : Fin 1) :
    broadcastInDim ⟨2, ![a, 1]⟩ dims h x (ix2 r u) = x (ix1 r) := by
  refine broadcastInDim_apply dims h x (ix2 r u) (ix1 r) fun ax => ?_
  match ax with
  | ⟨0, _⟩ =>
    show r.val = if a = 1 then 0 else (ix2 r u (dims 0)).val
    rw [hd]
    split
    · have := r.isLt; omega
    · rfl

/-- A column `[a, 1]` broadcast along `b` columns reads, at `(r, k)`, the column at `r`. -/
theorem bcast_a1_ab_at {a b : ℕ} (dims : Fin (⟨2, ![a, 1]⟩ : Shape).rank → Fin (⟨2, ![a, b]⟩ : Shape).rank)
    (hd0 : dims 0 = 0) (hd1 : dims 1 = 1)
    (h : (⟨2, ![a, 1]⟩ : Shape).BroadcastsInDim ⟨2, ![a, b]⟩ dims) (x : (⟨2, ![a, 1]⟩ : Shape).Idx → α) (r : Fin a) (k : Fin b) :
    broadcastInDim ⟨2, ![a, b]⟩ dims h x (ix2 r k) = x (ix2 r (0 : Fin 1)) := by
  refine broadcastInDim_apply dims h x (ix2 r k) (ix2 r (0 : Fin 1)) fun ax => ?_
  match ax with
  | ⟨0, _⟩ =>
    show r.val = if a = 1 then 0 else (ix2 r k (dims 0)).val
    rw [hd0]
    split
    · have := r.isLt; omega
    · rfl
  | ⟨1, _⟩ =>
    show (0 : ℕ) = if (1 : ℕ) = 1 then 0 else (ix2 r k (dims 1)).val
    rw [if_pos rfl]

/-- A vector `[b]` broadcast into the row `[1, b]` reads, at `(u, j)`, the vector at `j`. -/
theorem bcast_b_1b_at {b : ℕ} (dims : Fin (⟨1, ![b]⟩ : Shape).rank → Fin (⟨2, ![1, b]⟩ : Shape).rank) (hd : dims 0 = 1)
    (h : (⟨1, ![b]⟩ : Shape).BroadcastsInDim ⟨2, ![1, b]⟩ dims) (x : (⟨1, ![b]⟩ : Shape).Idx → α) (u : Fin 1) (j : Fin b) :
    broadcastInDim ⟨2, ![1, b]⟩ dims h x (ix2 u j) = x (ix1 j) := by
  refine broadcastInDim_apply dims h x (ix2 u j) (ix1 j) fun ax => ?_
  match ax with
  | ⟨0, _⟩ =>
    show j.val = if b = 1 then 0 else (ix2 u j (dims 0)).val
    rw [hd]
    split
    · have := j.isLt; omega
    · rfl

/-- A row `[1, b]` repeated down `a` rows reads, at `(r, j)`, the row at `j`. -/
theorem bcast_1b_ab_at {a b : ℕ} (dims : Fin (⟨2, ![1, b]⟩ : Shape).rank → Fin (⟨2, ![a, b]⟩ : Shape).rank)
    (hd0 : dims 0 = 0) (hd1 : dims 1 = 1)
    (h : (⟨2, ![1, b]⟩ : Shape).BroadcastsInDim ⟨2, ![a, b]⟩ dims) (x : (⟨2, ![1, b]⟩ : Shape).Idx → α) (r : Fin a) (j : Fin b) :
    broadcastInDim ⟨2, ![a, b]⟩ dims h x (ix2 r j) = x (ix2 (0 : Fin 1) j) := by
  refine broadcastInDim_apply dims h x (ix2 r j) (ix2 (0 : Fin 1) j) fun ax => ?_
  match ax with
  | ⟨0, _⟩ =>
    show (0 : ℕ) = if (1 : ℕ) = 1 then 0 else (ix2 r j (dims 0)).val
    rw [if_pos rfl]
  | ⟨1, _⟩ =>
    show j.val = if b = 1 then 0 else (ix2 r j (dims 1)).val
    rw [hd1]
    split
    · have := j.isLt; omega
    · rfl

/-- On the extended reals the host's sum over the second axis of an `[a, b]` matrix is, at row `r`, the initial value plus
    the sum of that row's entries. -/
theorem hostReduceAdd_rows {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ d : Fin b, x (ix2 r d) := by
  rw [hostReduceAdd_apply, Ideal.hostReduceAdd_single h' h]
  refine congrArg (init (Shape.Idx.first hu) + ·) (Finset.sum_congr rfl fun d _ => congrArg x (funext fun ax => Fin.ext ?_))
  match ax with
  | ⟨0, _⟩ => rfl
  | ⟨1, _⟩ => rfl

end Cert.LibHostRows

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.KernelValue.lean ====
/-
  The idealized kernel's two results as functions of its arguments, read at an entry.

  Embedding `(n, k)` is `h n · Wr2 + p · (1 / d n) + bl2 k`, where `h` is the first layer's output (bias added last,
  the first aggregate averaged by the reciprocal of the clamped degree `d`), and `p` is the aggregate, over the edges
  landing on `n`, of the rows `h (row e) · Wl2` — the rows projected BEFORE aggregation. Probability `n` is the
  classifier of embedding row `n`.
-/
import proofs.«125335_j11381663334735_2_alg».proof.Proof.HostValues
import proofs.«125335_j11381663334735_2_alg».proof.Proof.KernelRun
import proofs.«125335_j11381663334735_2_alg».proof.Proof.LibSegSum
import proofs.«125335_j11381663334735_2_alg».proof.Proof.LibHostRows
import proofs.«125335_j11381663334735_2_alg».proof.Proof.LibKeepdims
import Idealize.ShloMosaic.Lib.ValueLayout

set_option maxRecDepth 16384

noncomputable section

open scoped BigOperators

namespace Cert.Sage.KernelValue

open Cert.KernelIdeal Cert.KernelIdeal.Gen Cert.Sage Cert.Sage.Region0 Cert.Sage.Region1 Cert.Sage.HostValues
open Idealize.ShloMosaic Idealize.ShloMosaic.TcCoe Idealize.ShloMosaic.ValueIdx Idealize.SL.Sem

/-! ## The host operations at an entry -/

/-- The single-precision word of one. -/
theorem one_word : Ideal.ofBits .f32 0x3F800000#32 = 1 := by
  simp [Ideal.ofBits, Ideal.ieee, -EReal.coe_mul]; norm_num

/-- A scalar constant repeated over a shape reads its value everywhere. -/
theorem bcast_scalar_apply {s : Shape} (h : S_.BroadcastsInDim s (![] : Fin 0 → Fin s.rank)) (w : BitVec 32) (i : s.Idx) :
    broadcastInDim s ![] h (constant (F := Ideal) S_ .f32 w) i = Ideal.ofBits .f32 w :=
  broadcastInDim_apply _ h _ i (fun a => a.elim0) (fun a => a.elim0)

/-- The host's quotient, entry by entry. -/
theorem hostDivf_apply {s : Shape} (a b : FVec Ideal s .f32) (i : s.Idx) : Host.divf a b i = Ideal.div (a i) (b i) := rfl

/-- The destination word of edge `e`. -/
def dw (d : IVec S1600000 32) (e : Fin 1600000) : BitVec 32 := dstCol d (ix2 e (0 : Fin 1))
/-- The row the gather reads for edge `e`: its start index read signed and clamped into the table. -/
def row (s : IVec S1600000 32) (e : Fin 1600000) : Fin 100000 :=
  Cert.LibGatherFlatRows.rowOf 100000 (by norm_num) (srcCol s (ix2 e (0 : Fin 1)))
/-- The clamped degree of node `n`. -/
def deg (d : IVec S1600000 32) (n : Fin 100000) : EReal := degArr d (ix1 n)

/-- A clamped degree is at least one. -/
theorem one_le_deg (d : IVec S1600000 32) (n : Fin 100000) : 1 ≤ deg d n := by
  unfold deg degArr
  rw [maximumf_apply, bcast_scalar_apply, one_word]
  exact le_max_right _ _

/-- The reciprocals' column at `(n, 0)`. -/
theorem invDeg_apply (d : IVec S1600000 32) (n : Fin 100000) : invDeg d (ix2 n (0 : Fin 1)) = Ideal.div 1 (deg d n) := by
  unfold invDeg deg
  rw [Cert.LibKeepdims.shapeCast_a_a1_apply (a := 100000), hostDivf_apply, bcast_scalar_apply, one_word]

/-- THE AVERAGED AGGREGATE AT `(n, k)`: the sum over the edges landing on `n` of entry `k` of the gathered row, times
    the scale's entry for `n`. -/
theorem aggOf_apply (X : FVec Ideal S100000x64 .f32) (s d : IVec S1600000 32) (inv : FVec Ideal S100000x1 .f32)
    (n : Fin 100000) (k : Fin 64) :
    aggOf X s d inv (ix2 n k) = seg (dw d) (row s) (fun a b => X (ix2 a b)) n k * inv (ix2 n (0 : Fin 1)) := by
  unfold aggOf
  rw [mulf_apply, Cert.LibHostRows.bcast_a1_ab_at (a := 100000) (b := 64) _ rfl rfl]
  refine congrArg (fun t => t * inv (ix2 n (0 : Fin 1))) ?_
  have hs : ScatterDims.WF ⟨2, ![100000, 64]⟩ ⟨2, ![1600000, 1]⟩ ⟨2, ![1600000, 64]⟩ [1] [0] [0] 1 :=
    scatter_S100000x64_S1600000x1_S1600000x64_1_0_0_1.wf
  have hg : GatherDims.WF ⟨2, ![100000, 64]⟩ ⟨2, ![1600000, 1]⟩ ⟨2, ![1600000, 64]⟩ [1] [0] [] [0] [] 1 ![1, 64] :=
    gather_S100000x64_S1600000x1_S1600000x64_1_0_n_n_0_1_164.wf
  refine (Cert.LibSegSum.scatterAdd_rows_apply (N := 100000) (D := 64) (E := 1600000) hs
    (broadcastInDim S100000x64 ![] bcast_S_S100000x64 (constant (F := Ideal) S_ .f32 0x00000000#32)) (dstCol d)
    (Host.gather gather_S100000x64_S1600000x1_S1600000x64_1_0_n_n_0_1_164 X (srcCol s)) n k).trans ?_
  rw [bcast_scalar_apply, Ideal.ofBits_zero_f32, zero_add]
  unfold seg dw row
  refine Finset.sum_congr rfl fun e _ => ?_
  rw [show Host.gather gather_S100000x64_S1600000x1_S1600000x64_1_0_n_n_0_1_164 X (srcCol s) (ix2 e k)
      = X (ix2 (Cert.LibGatherFlatRows.rowOf 100000 (by norm_num) (srcCol s (ix2 e (0 : Fin 1)))) k) from
    Cert.LibGatherFlatRows.gather_rows_apply (N := 100000) (D := 64) (E := 1600000) (by norm_num) hg X (srcCol s) e k]

/-! ## The two results as functions of the arguments -/

section Results
variable (x : FVec Ideal S100000x64 .f32) (ei : IVec S2x1600000 32) (Wl1 : FVec Ideal S64x128 .f32) (bl1 : FVec Ideal S128 .f32)
  (Wr1 : FVec Ideal S64x128 .f32) (Wl2 : FVec Ideal S128x64 .f32) (bl2 : FVec Ideal S64 .f32) (Wr2 : FVec Ideal S128x64 .f32)
  (Wc1 : FVec Ideal S64x128 .f32) (bc1 : FVec Ideal S128 .f32) (Wc2 : FVec Ideal S128x64 .f32) (bc2 : FVec Ideal S64 .f32)
  (Wc3 : FVec Ideal S64x1 .f32) (bc3 : FVec Ideal S1 .f32)

/-- The first averaged aggregate. -/
def aggK : FVec Ideal S100000x64 .f32 := aggOf x (srcW ei) (dstW ei) (invDeg (dstW ei))
/-- The hidden features. -/
def hidK : FVec Ideal S100000x128 .f32 := hidArr (aggK x ei) x Wl1 Wr1 (shapeCast S1x128 bl1 shapeCasts_S128_S1x128)
/-- The projected features. -/
def projK : FVec Ideal S100000x64 .f32 := projArr (aggK x ei) x Wl1 Wr1 (shapeCast S1x128 bl1 shapeCasts_S128_S1x128) Wl2
/-- The second averaged aggregate, of the projected features. -/
def agg2K : FVec Ideal S100000x64 .f32 := aggOf (projK x ei Wl1 bl1 Wr1 Wl2) (srcW ei) (dstW ei) (invDeg (dstW ei))
/-- THE EMBEDDINGS. -/
def embK : FVec Ideal S100000x64 .f32 :=
  embArr (agg2K x ei Wl1 bl1 Wr1 Wl2) (hidK x ei Wl1 bl1 Wr1) Wr2 (shapeCast S1x64 bl2 shapeCasts_S64_S1x64)
/-- THE PROBABILITIES. -/
def probK : FVec Ideal S100000x1 .f32 :=
  probArr (agg2K x ei Wl1 bl1 Wr1 Wl2) (hidK x ei Wl1 bl1 Wr1) Wr2 (shapeCast S1x64 bl2 shapeCasts_S64_S1x64)
    Wc1 (shapeCast S1x128 bc1 shapeCasts_S128_S1x128) Wc2 (shapeCast S1x64 bc2 shapeCasts_S64_S1x64)
    Wc3 (shapeCast S1x1 bc3 shapeCasts_S1_S1x1)

/-- Row `i` of the hidden features, as the first layer's formula with the bias added last. -/
def hidRow (i : Fin 100000) (j : Fin 128) : EReal :=
  hidLast (fun k => meanMul (deg (dstW ei) i) (seg (dw (dstW ei)) (row (srcW ei)) (fun a b => x (ix2 a b)) i k))
    (fun k => x (ix2 i k)) (fun k j => Wl1 (ix2 k j)) (fun k j => Wr1 (ix2 k j)) (fun j => bl1 (ix1 j)) j

theorem aggK_apply (i : Fin 100000) (k : Fin 64) :
    aggK x ei (ix2 i k) = meanMul (deg (dstW ei) i) (seg (dw (dstW ei)) (row (srcW ei)) (fun a b => x (ix2 a b)) i k) := by
  unfold aggK meanMul
  rw [aggOf_apply, invDeg_apply]

theorem hidK_apply (i : Fin 100000) (j : Fin 128) : hidK x ei Wl1 bl1 Wr1 (ix2 i j) = hidRow x ei Wl1 bl1 Wr1 i j := by
  unfold hidK hidRow
  rw [hidArr_apply]
  simp only [aggK_apply, shapeCast_a_1a_apply]

/-- THE EMBEDDINGS AT `(n, k)`: the second layer with the rows projected before aggregation. -/
theorem embK_apply (n : Fin 100000) (k : Fin 64) :
    embK x ei Wl1 bl1 Wr1 Wl2 bl2 Wr2 (ix2 n k)
      = embProj (hidRow x ei Wl1 bl1 Wr1 n)
          (seg (dw (dstW ei)) (row (srcW ei)) (fun i k' => dense (hidRow x ei Wl1 bl1 Wr1 i) (fun j k => Wl2 (ix2 j k)) k') n k)
          (deg (dstW ei) n) (fun j k => Wr2 (ix2 j k)) (fun k => bl2 (ix1 k)) k := by
  unfold embK embProj meanMul agg2K projK
  rw [embArr_apply, aggOf_apply, invDeg_apply]
  simp only [projArr_apply, shapeCast_a_1a_apply]
  simp only [show ∀ i j, hidArr (aggK x ei) x Wl1 Wr1 (shapeCast S1x128 bl1 shapeCasts_S128_S1x128) (ix2 i j)
    = hidRow x ei Wl1 bl1 Wr1 i j from hidK_apply x ei Wl1 bl1 Wr1, hidK_apply]

/-- THE PROBABILITIES AT `(n, 0)`: the classifier of embedding row `n`. -/
theorem probK_apply (n : Fin 100000) :
    probK x ei Wl1 bl1 Wr1 Wl2 bl2 Wr2 Wc1 bc1 Wc2 bc2 Wc3 bc3 (ix2 n (0 : Fin 1))
      = prob (fun k => embK x ei Wl1 bl1 Wr1 Wl2 bl2 Wr2 (ix2 n k)) (fun i j => Wc1 (ix2 i j)) (fun j => bc1 (ix1 j))
          (fun j k => Wc2 (ix2 j k)) (fun k => bc2 (ix1 k)) (fun k z => Wc3 (ix2 k z)) (bc3 (ix1 (0 : Fin 1))) := by
  unfold probK
  rw [probArr_apply]
  simp only [shapeCast_a_1a_apply]
  rfl

end Results

/-! ## The run, read -/

variable (m : (ℓ : Loc nD τ sig) → Buf (Elt Ideal) ℓ) (ρ : Dev nD → PrngReg)

theorem emb_final (c : Dev nD) : W4 m ρ c (Proc.devRef .tc main_v43_0)
    = embK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [Cert.Sage.KernelRun.W4_emb, final10, V3_agg, V3_hid, V3_arg7, V3_v39, W2_proj, W2_hid, W2_src, W2_dst, W2_inv, V1_agg,
    V1_bias]
  rfl

theorem prob_final (c : Dev nD) : W4 m ρ c (Proc.devRef .tc main_v43_1)
    = probK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [Cert.Sage.KernelRun.W4_prob, final11, V3_agg, V3_hid, V3_arg7, V3_v39, V3_arg8, V3_v40, V3_arg10, V3_v41, V3_arg12, V3_v42,
    W2_proj, W2_hid, W2_src, W2_dst, W2_inv, V1_agg, V1_bias]
  rfl

/-- Every weakly fair execution of the idealized kernel ends, nothing faulting, with the embeddings and the
    probabilities at their functions of the arguments, and the arguments as launched. -/
theorem run : θ_run (defs (F := Ideal)) (onTc (τ := τ) (main (F := Ideal))) ⟨m, fun _ => 0, ρ⟩ (fun r => ∀ c : Dev nD,
      r.2.mem ((c.tc : Thread nD τ).loc main_v43_0) = embK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_v43_1) = probK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run (defs (F := Ideal)) _ _).mono
    (fun r h c => ⟨(h c).1.trans (emb_final m ρ c), (h c).2.1.trans (prob_final m ρ c), (h c).2.2⟩)
    (Cert.Sage.KernelRun.run_main (F := Ideal) m ρ)

end Cert.Sage.KernelValue

end
-- ==== Proof.RefValue.lean ====
/-
  The reference program's two results, read at an index on the extended reals, as the formulas of the specification:
  the first layer's rectified output `hid`, the second layer's embedding (aggregate first, project the mean), and the
  classifier's probability from an embedding row.

  Every stage of the program is read at an index by its generated lemma; the two gathers of rows and the two adding
  scatters of rows are read by the general lemmas on such gathers and scatters. The degree array (an adding scatter of
  ones into a flat array) is kept as it stands: only its clamp `max · 1` is read.
-/
import proofs.«125335_j11381663334735_2_alg».proof.Proof.Gen.ReferenceIdeal.Read
import proofs.«125335_j11381663334735_2_alg».proof.Proof.Spec
import proofs.«125335_j11381663334735_2_alg».proof.Proof.LibSegSum
import Idealize.ShloMosaic.Lib.ValueIdx
import Idealize.ShloMosaic.Lib.Pipeline.Value
import Idealize.ShloMosaic.PureOps.Ideal.Laws

noncomputable section

open scoped BigOperators

namespace Cert.Sage.RefValue

open Cert.ReferenceIdeal Cert.ReferenceIdeal.Read Idealize.ShloMosaic Idealize.ShloMosaic.ValueIdx Cert.Sage

/-- The single-precision pattern `0x3F800000` (sign `0`, exponent field `127`, significand field `0`) denotes `1`. -/
theorem lit_one : Ideal.ofBits .f32 0x3F800000#32 = (1 : EReal) := by
  simp [Ideal.ofBits, Ideal.ieee, -EReal.coe_mul]; norm_num

variable (x0 : (⟨S100000x64, .f32⟩ : BufTy).Contents (Elt Ideal)) (x1 : (⟨S2x1600000, .i32⟩ : BufTy).Contents (Elt Ideal))
  (x2 : (⟨S64x128, .f32⟩ : BufTy).Contents (Elt Ideal)) (x3 : (⟨S128, .f32⟩ : BufTy).Contents (Elt Ideal))
  (x4 : (⟨S64x128, .f32⟩ : BufTy).Contents (Elt Ideal)) (x5 : (⟨S128x64, .f32⟩ : BufTy).Contents (Elt Ideal))
  (x6 : (⟨S64, .f32⟩ : BufTy).Contents (Elt Ideal)) (x7 : (⟨S128x64, .f32⟩ : BufTy).Contents (Elt Ideal))
  (x8 : (⟨S64x128, .f32⟩ : BufTy).Contents (Elt Ideal)) (x9 : (⟨S128, .f32⟩ : BufTy).Contents (Elt Ideal))
  (x10 : (⟨S128x64, .f32⟩ : BufTy).Contents (Elt Ideal)) (x11 : (⟨S64, .f32⟩ : BufTy).Contents (Elt Ideal))
  (x12 : (⟨S64x1, .f32⟩ : BufTy).Contents (Elt Ideal)) (x13 : (⟨S1, .f32⟩ : BufTy).Contents (Elt Ideal))

/-! ## The classifier -/

/-- The last operations: `1 / (1 + exp (-x))` of the last layer's entry, the literal `1.0` read as `1`. -/
theorem logistic_apply (n : Fin 100000) (z : Fin 1) :
    val_main_v74 (F := Ideal) x0 x1 x2 x3 x4 x5 x6 x7 x8 x9 x10 x11 x12 x13 (ix2 n z)
      = Ideal.logistic (val_main_v68 (F := Ideal) x0 x1 x2 x3 x4 x5 x6 x7 x8 x9 x10 x11 x12 x13 (ix2 n z)) := by
  rw [val_main_v74_apply, val_main_v73_apply, val_main_cst_11_apply, val_main_v72_apply, val_main_v71_apply,
    val_main_cst_10_apply, val_main_v70_apply, val_main_v69_apply, Ideal.hostDivf_def, Ideal.hostUnary_exp_def,
    Ideal.hostNegf_def, Ideal.negf_def, Ideal.addf_def, Ideal.ofBits_def, lit_one]
  rfl

/-- The last layer's entry: the product with the one column of weights, plus the bias. -/
theorem last_apply (n : Fin 100000) (z : Fin 1) :
    val_main_v68 (F := Ideal) x0 x1 x2 x3 x4 x5 x6 x7 x8 x9 x10 x11 x12 x13 (ix2 n z)
      = (∑ k : Fin 64, val_main_v64 (F := Ideal) x0 x1 x2 x3 x4 x5 x6 x7 x8 x9 x10 x11 (ix2 n k) * x12 (ix2 k z))
          + x13 (ix1 (0 : Fin 1)) := by
  have el : ∀ k : Fin 64, lidx_main_v65 (ix2 n z) k = ix2 n k := fun k =>
    funext fun a => Fin.ext (by match a with | ⟨0, _⟩ => rfl | ⟨1, _⟩ => rfl)
  have er : ∀ k : Fin 64, ridx_main_v65 (ix2 n z) k = ix2 k z := fun k =>
    funext fun a => Fin.ext (by match a with | ⟨0, _⟩ => rfl | ⟨1, _⟩ => rfl)
  have eb : idx_main_v66 (idx_main_v67 (ix2 n z)) = ix1 (0 : Fin 1) :=
    funext fun a => Fin.ext (by match a with | ⟨0, _⟩ => rfl)
  rw [val_main_v68_apply, val_main_v67_apply, val_main_v66_apply, val_main_v65_apply, eb, Ideal.addf_def]
  refine congrArg (· + x13 (ix1 (0 : Fin 1))) (Finset.sum_congr rfl fun k _ => ?_)
  rw [el, er]

/-- The second rectified layer at `(n, k)`. -/
theorem relu2_apply (n : Fin 100000) (k : Fin 64) :
    val_main_v64 (F := Ideal) x0 x1 x2 x3 x4 x5 x6 x7 x8 x9 x10 x11 (ix2 n k)
      = max ((∑ j : Fin 128, val_main_v59 (F := Ideal) x0 x1 x2 x3 x4 x5 x6 x7 x8 x9 (ix2 n j) * x10 (ix2 j k))
          + x11 (ix1 k)) 0 := by
  have el : ∀ j : Fin 128, lidx_main_v60 (ix2 n k) j = ix2 n j := fun j =>
    funext fun a => Fin.ext (by match a with | ⟨0, _⟩ => rfl | ⟨1, _⟩ => rfl)
  have er : ∀ j : Fin 128, ridx_main_v60 (ix2 n k) j = ix2 j k := fun j =>
    funext fun a => Fin.ext (by match a with | ⟨0, _⟩ => rfl | ⟨1, _⟩ => rfl)
  have eb : idx_main_v61 (idx_main_v62 (ix2 n k)) = ix1 k :=
    funext fun a => Fin.ext (by match a with | ⟨0, _⟩ => rfl)
  rw [val_main_v64_apply, val_main_call2_v0_apply, val_main_call2_cst_apply, val_main_v63_apply, val_main_v62_apply,
    val_main_v61_apply, val_main_v60_apply, eb, Ideal.maximumf_def, Ideal.addf_def, Ideal.ofBits_def,
    Ideal.ofBits_zero_f32]
  refine congrArg (fun s => max (s + x11 (ix1 k)) 0) (Finset.sum_congr rfl fun j _ => ?_)
  rw [el, er]

/-- The first rectified layer at `(n, j)`. -/
theorem relu1_apply (n : Fin 100000) (j : Fin 128) :
    val_main_v59 (F := Ideal) x0 x1 x2 x3 x4 x5 x6 x7 x8 x9 (ix2 n j)
      = max ((∑ i : Fin 64, val_main_v54 (F := Ideal) x0 x1 x2 x3 x4 x5 x6 x7 (ix2 n i) * x8 (ix2 i j))
          + x9 (ix1 j)) 0 := by
  have el : ∀ i : Fin 64, lidx_main_v55 (ix2 n j) i = ix2 n i := fun i =>
    funext fun a => Fin.ext (by match a with | ⟨0, _⟩ => rfl | ⟨1, _⟩ => rfl)
  have er : ∀ i : Fin 64, ridx_main_v55 (ix2 n j) i = ix2 i j := fun i =>
    funext fun a => Fin.ext (by match a with | ⟨0, _⟩ => rfl | ⟨1, _⟩ => rfl)
  have eb : idx_main_v56 (idx_main_v57 (ix2 n j)) = ix1 j :=
    funext fun a => Fin.ext (by match a with | ⟨0, _⟩ => rfl)
  rw [val_main_v59_apply, val_main_call1_v0_apply, val_main_call1_cst_apply, val_main_v58_apply, val_main_v57_apply,
    val_main_v56_apply, val_main_v55_apply, eb, Ideal.maximumf_def, Ideal.addf_def, Ideal.ofBits_def,
    Ideal.ofBits_zero_f32]
  refine congrArg (fun s => max (s + x9 (ix1 j)) 0) (Finset.sum_congr rfl fun i _ => ?_)
  rw [el, er]

/-- THE PROBABILITY OF NODE `n`: the classifier of the specification applied to row `n` of the embedding. -/
theorem prob_apply (n : Fin 100000) :
    val_main_v74 (F := Ideal) x0 x1 x2 x3 x4 x5 x6 x7 x8 x9 x10 x11 x12 x13 (ix2 n (0 : Fin 1))
      = prob (fun i => val_main_v54 (F := Ideal) x0 x1 x2 x3 x4 x5 x6 x7 (ix2 n i)) (fun i j => x8 (ix2 i j))
          (fun j => x9 (ix1 j)) (fun j k => x10 (ix2 j k)) (fun k => x11 (ix1 k)) (fun k z => x12 (ix2 k z))
          (x13 (ix1 (0 : Fin 1))) := by
  rw [logistic_apply, last_apply]
  unfold prob dense relu
  beta_reduce
  refine congrArg (fun s => Ideal.logistic (s + x13 (ix1 (0 : Fin 1)))) (Finset.sum_congr rfl fun k _ => ?_)
  rw [relu2_apply]
  refine congrArg (fun s => max (s + x11 (ix1 k)) 0 * x12 (ix2 k (0 : Fin 1))) (Finset.sum_congr rfl fun j _ => ?_)
  rw [relu1_apply]
  rfl

/-! ## The edges and the degree -/

/-- The destination word of edge `e`: entry `e` of the second row of the edge array, as the scatters read it. -/
def dw (e : Fin 1600000) : BitVec 32 := val_main_v12 (F := Ideal) x1 (ix2 e (0 : Fin 1))

/-- The row the gathers read for edge `e`: entry `e` of the first row of the edge array, a negative entry wrapped by
    the number of nodes, read as a signed integer and clamped into the table. -/
def row (e : Fin 1600000) : Fin 100000 :=
  Cert.LibGatherFlatRows.rowOf 100000 (by norm_num) (val_main_v9 (F := Ideal) x1 (ix2 e (0 : Fin 1)))

/-- The clamped degree of node `n`: the larger of the degree array's entry and the literal `1.0`, kept as its word. -/
def deg (n : Fin 100000) : EReal := max (val_main_v17 (F := Ideal) x1 (ix1 n)) (Ideal.ofBits .f32 0x3F800000#32)

/-! ## The first layer -/

/-- The first aggregate: the adding scatter of the gathered rows of the feature table, at `(i, k)`, is the sum over
    the edges whose destination word reads `i` of entry `k` of the row the edge names. -/
theorem agg1_apply (i : Fin 100000) (k : Fin 64) :
    val_main_v13 (F := Ideal) x0 x1 (ix2 i k) = seg (dw x1) (row x1) (fun a b => x0 (ix2 a b)) i k := by
  have hs : val_main_v13 (F := Ideal) x0 x1 (ix2 i k)
      = Host.scatterAdd (F := Ideal) (φ := .f32) (Cert.LibSegSum.rowsDims 100000 64 1600000
            Facts₀.scatter_S100000x64_S1600000x1_S1600000x64_1_0_0_1_wf)
          (val_main_v11 (F := Ideal)) (val_main_v12 (F := Ideal) x1) (val_main_v10 (F := Ideal) x0 x1) (ix2 i k) := rfl
  rw [hs, Cert.LibSegSum.scatterAdd_rows_apply, val_main_v11_apply, val_main_cst_apply, Ideal.ofBits_def,
    Ideal.ofBits_zero_f32, zero_add]
  unfold seg
  refine Finset.sum_congr rfl fun e _ => ?_
  have hg : val_main_v10 (F := Ideal) x0 x1 (ix2 e k) = x0 (ix2 (row x1 e) k) :=
    Cert.LibGatherFlatRows.gather_rows_apply (by norm_num)
      Facts₀.gather_S100000x64_S1600000x1_S1600000x64_1_0_n_n_0_1_164_wf x0 (val_main_v9 (F := Ideal) x1) e k
  rw [hg]
  rfl

/-- The divisor of the first mean, at every column of row `i`, is the clamped degree of node `i`. -/
theorem deg1_apply (i : Fin 100000) (k : Fin 64) : val_main_v21 (F := Ideal) x1 (ix2 i k) = deg x1 i := by
  have e : idx_main_v20 (idx_main_v21 (ix2 i k)) = ix1 i :=
    funext fun a => Fin.ext (by match a with | ⟨0, _⟩ => rfl)
  rw [val_main_v21_apply, val_main_v20_apply, e, val_main_v19_apply, val_main_v18_apply, val_main_cst_3_apply,
    Ideal.maximumf_def, Ideal.ofBits_def]
  rfl

/-- The first layer's rectified output at node `i`, column `j`: the mean of the aggregate by the clamped degree
    through the left weights, the bias, the node's own row through the right weights. -/
def hid (i : Fin 100000) (j : Fin 128) : EReal :=
  hidMid (fun k => meanDiv (deg x1 i) (seg (dw x1) (row x1) (fun a b => x0 (ix2 a b)) i k)) (fun k => x0 (ix2 i k))
    (fun k j => x2 (ix2 k j)) (fun k j => x4 (ix2 k j)) (fun j => x3 (ix1 j)) j

/-- THE FIRST LAYER AT `(i, j)`. -/
theorem hid_apply (i : Fin 100000) (j : Fin 128) :
    val_main_v29 (F := Ideal) x0 x1 x2 x3 x4 (ix2 i j) = hid x0 x1 x2 x3 x4 i j := by
  have e23l : ∀ k : Fin 64, lidx_main_v23 (ix2 i j) k = ix2 i k := fun k =>
    funext fun a => Fin.ext (by match a with | ⟨0, _⟩ => rfl | ⟨1, _⟩ => rfl)
  have e23r : ∀ k : Fin 64, ridx_main_v23 (ix2 i j) k = ix2 k j := fun k =>
    funext fun a => Fin.ext (by match a with | ⟨0, _⟩ => rfl | ⟨1, _⟩ => rfl)
  have e27l : ∀ k : Fin 64, lidx_main_v27 (ix2 i j) k = ix2 i k := fun k =>
    funext fun a => Fin.ext (by match a with | ⟨0, _⟩ => rfl | ⟨1, _⟩ => rfl)
  have e27r : ∀ k : Fin 64, ridx_main_v27 (ix2 i j) k = ix2 k j := fun k =>
    funext fun a => Fin.ext (by match a with | ⟨0, _⟩ => rfl | ⟨1, _⟩ => rfl)
  have e25 : idx_main_v24 (idx_main_v25 (ix2 i j)) = ix1 j :=
    funext fun a => Fin.ext (by match a with | ⟨0, _⟩ => rfl)
  rw [val_main_v29_apply, val_main_call0_v0_apply, val_main_call0_cst_apply, val_main_v28_apply, val_main_v27_apply,
    val_main_v26_apply, val_main_v25_apply, val_main_v24_apply, val_main_v23_apply, e25, Ideal.maximumf_def,
    Ideal.addf_def, Ideal.addf_def, Ideal.ofBits_def, Ideal.ofBits_zero_f32]
  unfold hid hidMid dense meanDiv
  beta_reduce
  refine congrArg₂ (fun s t => max ((s + x3 (ix1 j)) + t) 0) (Finset.sum_congr rfl fun k _ => ?_)
    (Finset.sum_congr rfl fun k _ => ?_)
  · rw [e23l, e23r, val_main_v22_apply, agg1_apply, deg1_apply, Ideal.hostDivf_def]
  · rw [e27l, e27r]

/-! ## The second layer -/

/-- The second layer's degree array, index column and start-index column are the first layer's: the same terms. -/
theorem deg2_eq : val_main_v43 (F := Ideal) x1 = val_main_v17 (F := Ideal) x1 := rfl
theorem dw2_eq : val_main_v38 (F := Ideal) x1 = val_main_v12 (F := Ideal) x1 := rfl
theorem row2_eq : val_main_v35 (F := Ideal) x1 = val_main_v9 (F := Ideal) x1 := rfl

/-- The second aggregate: the adding scatter of the gathered rows of the first layer's output, at `(n, j)`. -/
theorem agg2_apply (n : Fin 100000) (j : Fin 128) :
    val_main_v39 (F := Ideal) x0 x1 x2 x3 x4 (ix2 n j) = seg (dw x1) (row x1) (hid x0 x1 x2 x3 x4) n j := by
  have hs : val_main_v39 (F := Ideal) x0 x1 x2 x3 x4 (ix2 n j)
      = Host.scatterAdd (F := Ideal) (φ := .f32) (Cert.LibSegSum.rowsDims 100000 128 1600000
            Facts₀.scatter_S100000x128_S1600000x1_S1600000x128_1_0_0_1_wf)
          (val_main_v37 (F := Ideal)) (val_main_v38 (F := Ideal) x1) (val_main_v36 (F := Ideal) x0 x1 x2 x3 x4)
          (ix2 n j) := rfl
  rw [hs, Cert.LibSegSum.scatterAdd_rows_apply, val_main_v37_apply, val_main_cst_6_apply, Ideal.ofBits_def,
    Ideal.ofBits_zero_f32, zero_add, dw2_eq]
  unfold seg
  refine Finset.sum_congr rfl fun e _ => ?_
  have hg : val_main_v36 (F := Ideal) x0 x1 x2 x3 x4 (ix2 e j)
      = val_main_v29 (F := Ideal) x0 x1 x2 x3 x4
          (ix2 (Cert.LibGatherFlatRows.rowOf 100000 (by norm_num) (val_main_v35 (F := Ideal) x1 (ix2 e (0 : Fin 1)))) j) :=
    Cert.LibGatherFlatRows.gather_rows_apply (by norm_num)
      Facts₀.gather_S100000x128_S1600000x1_S1600000x128_1_0_n_n_0_1_1128_wf (val_main_v29 (F := Ideal) x0 x1 x2 x3 x4)
      (val_main_v35 (F := Ideal) x1) e j
  rw [hg, row2_eq, hid_apply]
  rfl

/-- The divisor of the second mean, at every column of row `n`, is the clamped degree of node `n`. -/
theorem deg2_apply (n : Fin 100000) (j : Fin 128) : val_main_v47 (F := Ideal) x1 (ix2 n j) = deg x1 n := by
  have e : idx_main_v46 (idx_main_v47 (ix2 n j)) = ix1 n :=
    funext fun a => Fin.ext (by match a with | ⟨0, _⟩ => rfl)
  rw [val_main_v47_apply, val_main_v46_apply, e, val_main_v45_apply, val_main_v44_apply, val_main_cst_9_apply,
    Ideal.maximumf_def, Ideal.ofBits_def, deg2_eq]
  rfl

/-- THE EMBEDDING AT `(n, k)`: aggregate the first layer's rows, take the mean, project it through the left weights,
    add the bias, add the node's own row through the right weights. -/
theorem emb_apply (n : Fin 100000) (k : Fin 64) :
    val_main_v54 (F := Ideal) x0 x1 x2 x3 x4 x5 x6 x7 (ix2 n k)
      = embAgg (hid x0 x1 x2 x3 x4 n) (fun j => seg (dw x1) (row x1) (hid x0 x1 x2 x3 x4) n j) (deg x1 n)
          (fun j k => x5 (ix2 j k)) (fun j k => x7 (ix2 j k)) (fun k => x6 (ix1 k)) k := by
  have e49l : ∀ j : Fin 128, lidx_main_v49 (ix2 n k) j = ix2 n j := fun j =>
    funext fun a => Fin.ext (by match a with | ⟨0, _⟩ => rfl | ⟨1, _⟩ => rfl)
  have e49r : ∀ j : Fin 128, ridx_main_v49 (ix2 n k) j = ix2 j k := fun j =>
    funext fun a => Fin.ext (by match a with | ⟨0, _⟩ => rfl | ⟨1, _⟩ => rfl)
  have e53l : ∀ j : Fin 128, lidx_main_v53 (ix2 n k) j = ix2 n j := fun j =>
    funext fun a => Fin.ext (by match a with | ⟨0, _⟩ => rfl | ⟨1, _⟩ => rfl)
  have e53r : ∀ j : Fin 128, ridx_main_v53 (ix2 n k) j = ix2 j k := fun j =>
    funext fun a => Fin.ext (by match a with | ⟨0, _⟩ => rfl | ⟨1, _⟩ => rfl)
  have e51 : idx_main_v50 (idx_main_v51 (ix2 n k)) = ix1 k :=
    funext fun a => Fin.ext (by match a with | ⟨0, _⟩ => rfl)
  rw [val_main_v54_apply, val_main_v53_apply, val_main_v52_apply, val_main_v51_apply, val_main_v50_apply,
    val_main_v49_apply, e51, Ideal.addf_def, Ideal.addf_def]
  unfold embAgg dense meanDiv
  beta_reduce
  refine congrArg₂ (fun s t => (s + x6 (ix1 k)) + t) (Finset.sum_congr rfl fun j _ => ?_)
    (Finset.sum_congr rfl fun j _ => ?_)
  · rw [e49l, e49r, val_main_v48_apply, agg2_apply, deg2_apply, Ideal.hostDivf_def]
  · rw [e53l, e53r, hid_apply]

end Cert.Sage.RefValue

end
-- ==== Proof.Bridge.lean ====
/-
  The idealized kernel's results are the idealized reference's.

  Both programs take the edges' words from the same rows of the edge list by the same operations, so the destination
  words, the gathered rows and the clamped degrees are the same on both sides. The first layers agree because the
  product with the reciprocal of a nonzero degree is the quotient by it, and because addition may be regrouped. The
  second layers agree by the linearity of aggregation, which needs the hidden features and the projection weights to
  be real numbers: they are, because the features, the first layer's weights and bias, and the projection weights are
  finite by the precondition. From equal embeddings the classifier gives equal probabilities.
-/
import proofs.«125335_j11381663334735_2_alg».proof.Proof.KernelValue
import proofs.«125335_j11381663334735_2_alg».proof.Proof.RefValue

set_option maxRecDepth 16384

noncomputable section

open scoped BigOperators

namespace Cert.Sage.Bridge

open Cert.KernelIdeal Cert.Sage Cert.Sage.HostValues Cert.Sage.KernelValue Cert.Attn.RealLaw
open Idealize.ShloMosaic Idealize.ShloMosaic.ValueIdx

variable (x : FVec Ideal S100000x64 .f32) (ei : IVec S2x1600000 32) (Wl1 : FVec Ideal S64x128 .f32) (bl1 : FVec Ideal S128 .f32)
  (Wr1 : FVec Ideal S64x128 .f32) (Wl2 : FVec Ideal S128x64 .f32) (bl2 : FVec Ideal S64 .f32) (Wr2 : FVec Ideal S128x64 .f32)
  (Wc1 : FVec Ideal S64x128 .f32) (bc1 : FVec Ideal S128 .f32) (Wc2 : FVec Ideal S128x64 .f32) (bc2 : FVec Ideal S64 .f32)
  (Wc3 : FVec Ideal S64x1 .f32) (bc3 : FVec Ideal S1 .f32)

/-! ## The same edges on both sides -/

/-- The destination words are the same terms of the edge list. -/
theorem dw_eq : KernelValue.dw (dstW ei) = RefValue.dw ei := funext fun e => rfl

/-- So are the rows the gathers read. -/
theorem row_eq : KernelValue.row (srcW ei) = RefValue.row ei := funext fun e => rfl

/-- So are the clamped degrees. -/
theorem deg_eq (n : Fin 100000) : KernelValue.deg (dstW ei) n = RefValue.deg ei n := by
  unfold KernelValue.deg HostValues.degArr RefValue.deg
  rw [maximumf_apply, bcast_scalar_apply]
  rfl

/-! ## The first layer -/

/-- The kernel's hidden features are the reference's: reciprocal against quotient, and the place of the bias. -/
theorem hid_eq_ref (i : Fin 100000) (j : Fin 128) : hidRow x ei Wl1 bl1 Wr1 i j = RefValue.hid x ei Wl1 bl1 Wr1 i j := by
  unfold hidRow RefValue.hid
  rw [hid_eq, dw_eq, row_eq]
  have hm : ∀ s, meanMul (KernelValue.deg (dstW ei) i) s = meanDiv (KernelValue.deg (dstW ei) i) s :=
    fun s => mean_eq (ne_zero_of_one_le (one_le_deg (dstW ei) i)) s
  simp only [hm]
  rw [deg_eq]

section Finite
variable (hx : ∀ i, IsReal (x i)) (hWl1 : ∀ i, IsReal (Wl1 i)) (hbl1 : ∀ i, IsReal (bl1 i)) (hWr1 : ∀ i, IsReal (Wr1 i))
  (hWl2 : ∀ i, IsReal (Wl2 i))

include hx hWl1 hbl1 hWr1 in
/-- On finite features and first-layer parameters the hidden features are real numbers. -/
theorem hidRow_real (i : Fin 100000) (j : Fin 128) : IsReal (hidRow x ei Wl1 bl1 Wr1 i j) :=
  isReal_hidLast
    (fun k => isReal_meanMul (one_le_deg (dstW ei) i) (isReal_seg _ _ (fun a b => hx (ix2 a b)) i k))
    (fun k => hx (ix2 i k)) (fun k j => hWl1 (ix2 k j)) (fun k j => hWr1 (ix2 k j)) (fun j => hbl1 (ix1 j)) j

/-! ## The second layer and the classifier -/

include hx hWl1 hbl1 hWr1 hWl2 in
/-- THE EMBEDDINGS AGREE: projecting the rows before aggregating them gives what projecting the mean gives. -/
theorem emb_eq_ref : embK x ei Wl1 bl1 Wr1 Wl2 bl2 Wr2
    = Cert.ReferenceIdeal.Read.val_main_v54 (F := Ideal) x ei Wl1 bl1 Wr1 Wl2 bl2 Wr2 := by
  funext i
  obtain ⟨n, k, rfl⟩ : ∃ (n : Fin 100000) (k : Fin 64), i = ix2 n k := ⟨i 0, i 1, eq_ix2 i⟩
  have hh : hidRow x ei Wl1 bl1 Wr1 = RefValue.hid x ei Wl1 bl1 Wr1 :=
    funext fun a => funext fun b => hid_eq_ref x ei Wl1 bl1 Wr1 a b
  rw [embK_apply, RefValue.emb_apply, ← hh, ← dw_eq, ← row_eq, ← deg_eq]
  exact emb_eq (KernelValue.dw (dstW ei)) (KernelValue.row (srcW ei)) (hidRow x ei Wl1 bl1 Wr1) (fun j k => Wl2 (ix2 j k))
    (fun j k => Wr2 (ix2 j k)) (fun k => bl2 (ix1 k)) (KernelValue.deg (dstW ei) n)
    (hidRow_real x ei Wl1 bl1 Wr1 hx hWl1 hbl1 hWr1) (fun j k => hWl2 (ix2 j k)) (one_le_deg (dstW ei) n) n k

include hx hWl1 hbl1 hWr1 hWl2 in
/-- THE PROBABILITIES AGREE: the same classifier of equal embedding rows. -/
theorem prob_eq_ref : probK x ei Wl1 bl1 Wr1 Wl2 bl2 Wr2 Wc1 bc1 Wc2 bc2 Wc3 bc3
    = Cert.ReferenceIdeal.Read.val_main_v74 (F := Ideal) x ei Wl1 bl1 Wr1 Wl2 bl2 Wr2 Wc1 bc1 Wc2 bc2 Wc3 bc3 := by
  funext i
  obtain ⟨n, z, rfl⟩ : ∃ (n : Fin 100000) (z : Fin 1), i = ix2 n z := ⟨i 0, i 1, eq_ix2 i⟩
  obtain rfl : z = 0 := Subsingleton.elim _ _
  rw [probK_apply, RefValue.prob_apply, emb_eq_ref x ei Wl1 bl1 Wr1 Wl2 bl2 Wr2 hx hWl1 hbl1 hWr1 hWl2]

end Finite

end Cert.Sage.Bridge

end
-- ==== Proof.Finite.lean ====
/- Finiteness of the float arguments, read back from the precondition.

   The precondition is a conjunction of thirteen tests, one per float argument `a`, each of the form
   "every entry of `a` satisfies `|a i| < +∞`": the absolute value `max x (-x)` of each entry is compared,
   strictly, with the single-precision pattern `0x7F800000`, which denotes `⊤`; the comparisons are
   folded by `and` from the constant 1.  The precondition says the conjunction is 1.

   At the ideal reading an entry is an extended real.  If `x = ⊤` or `x = ⊥` then `max x (-x) = ⊤` and
   `⊤ < ⊤` fails, so the test is 0.  Hence a test that is 1 at every entry says that no entry is `⊤` or
   `⊥`, that is, every entry is the image of a real number. -/
import proofs.«125335_j11381663334735_2_alg».proof.Pre_finite_inputs
import proofs.«125335_j11381663334735_2_alg».proof.Proof.Gen.Pre_finite_inputs
import proofs.«125335_j11381663334735_2_alg».proof.Proof.LibRealLaw
import Idealize.ShloMosaic.Lib.ReduceAll
import Idealize.ShloMosaic.Lib.ValueIdx
import Idealize.ShloMosaic.PureOps.Ideal

noncomputable section

namespace Cert.Sage.Finite

open Idealize.ShloMosaic
open Cert.Pre_finite_inputs
open Cert.Attn.RealLaw

/-- The single-precision pattern `0x7F800000` (sign `0`, exponent field all ones, significand field `0`)
    denotes `⊤`. -/
theorem inf_bits : Ideal.ofBits .f32 0x7F800000#32 = (⊤ : EReal) := by
  simp [Ideal.ofBits, Ideal.ieee]

/-- An extended real whose absolute value `max x (-x)` is strictly below `⊤` is real: at `x = ⊤` the
    maximum is `⊤`, and at `x = ⊥` it is `-⊥ = ⊤`, so in both cases the comparison `⊤ < ⊤` fails. -/
theorem isReal_of_abs_lt_top (x : EReal) (h : Ideal.cmp .olt (max x (-x)) ⊤ = 1#1) : IsReal x := by
  induction x using EReal.rec with
  | bot => simp [Ideal.cmp] at h
  | coe r => exact ⟨r, rfl⟩
  | top => simp [Ideal.cmp] at h

/-- The result of a test has rank 0, hence one index. -/
instance : Subsingleton S_.Idx := ⟨fun a b => funext fun d => d.elim0⟩

/-- One conjunct of the precondition, over an arbitrary shape `s`: if the fold by `and` of the tests
    `|a i| < +∞` over all of `s` is 1, then every entry of `a` is real. -/
theorem real_of_all {s : Shape} {axes : List (Fin s.rank)} (a : FVec Ideal s .f32)
    (hb : S_.BroadcastsInDim s (![] : Fin 0 → Fin s.rank)) (hr : s.ReducesTo axes S_) (hu : 0 < S_.numel)
    (j : S_.Idx)
    (e : Host.reduce IntOp.andi
          (cmpf .olt (Host.absf a) (broadcastInDim s ![] hb (constant S_ .f32 0x7F800000#32)))
          (constantI S_ 1 1#1) hr hu j = 1#1) :
    ∀ i, IsReal (a i) := by
  intro i
  have hi := Host.reduce_andi_all _ _ hr hu j e i
  have hi' : Ideal.cmp .olt (max (a i) (-(a i))) (Ideal.ofBits .f32 0x7F800000#32) = 1#1 := hi
  rw [inf_bits] at hi'
  exact isReal_of_abs_lt_top (a i) hi'

/-- The precondition makes every entry of arguments 0, 2, 3, 4 and 5 real.  The precondition is the
    conjunction of the thirteen tests, nested to the left; each of the five conjuncts named is a test
    of the form treated by `real_of_all`. -/
theorem real_of_pre [Cert.Pre_finite_inputs.Facts]
    (a0 : FVec Ideal S100000x64 .f32) (a1 : IVec S2x1600000 32) (a2 : FVec Ideal S64x128 .f32) (a3 : FVec Ideal S128 .f32)
    (a4 : FVec Ideal S64x128 .f32) (a5 : FVec Ideal S128x64 .f32) (a6 : FVec Ideal S64 .f32) (a7 : FVec Ideal S128x64 .f32)
    (a8 : FVec Ideal S64x128 .f32) (a9 : FVec Ideal S128 .f32) (a10 : FVec Ideal S128x64 .f32) (a11 : FVec Ideal S64 .f32)
    (a12 : FVec Ideal S64x1 .f32) (a13 : FVec Ideal S1 .f32)
    (h : Cert.Pre_finite_inputs.fn (F := Ideal) a0 a1 a2 a3 a4 a5 a6 a7 a8 a9 a10 a11 a12 a13 = fun _ => 1#1) :
    (∀ i, IsReal (a0 i)) ∧ (∀ i, IsReal (a2 i)) ∧ (∀ i, IsReal (a3 i))
      ∧ (∀ i, IsReal (a4 i)) ∧ (∀ i, IsReal (a5 i)) := by
  have e := congrFun h ValueIdx.ix0
  dsimp only [fn, fn_part1, fn_part2, fn_part3] at e
  simp only [andi, IntOp.andi_eq_one] at e
  obtain ⟨⟨⟨⟨⟨⟨⟨⟨⟨⟨⟨⟨c0, c2⟩, c3⟩, c4⟩, c5⟩, -⟩, -⟩, -⟩, -⟩, -⟩, -⟩, -⟩, -⟩ := e
  exact ⟨real_of_all a0 _ _ _ _ c0, real_of_all a2 _ _ _ _ c2, real_of_all a3 _ _ _ _ c3,
    real_of_all a4 _ _ _ _ c4, real_of_all a5 _ _ _ _ c5⟩

end Cert.Sage.Finite

end
-- ==== Proof.lean ====
/-
  A two-layer mean-aggregating graph convolution with a three-layer classifier, as a pair of pipelined kernels among
  host gathers and scatters, against its plain array-program reference: the two idealized programs end with equal
  results on the extended reals.

  The kernel's run names its two results at the last boundary of its buffers' fold (`KernelRun`); each region's output
  arrays are one function of the region's input arrays (`Region0`, `Region1`); the host operations before each region
  give those input arrays from the arguments (`HostValues`); read at an entry, the kernel's embeddings project the hidden
  rows before aggregating them and average by the reciprocal of the clamped degree (`KernelValue`). The reference's run
  is generated and read stage by stage (`RefValue`): it aggregates first, divides by the degree, then projects. The two
  agree on real entries (`Spec`, `Bridge`), and the precondition makes the entries that matter real (`Finite`).
-/
import proofs.«125335_j11381663334735_2_alg».proof.Defs
import proofs.«125335_j11381663334735_2_alg».proof.Proof.Gen.Kernel
import proofs.«125335_j11381663334735_2_alg».proof.Proof.Gen.Kernel.Skeleton
import proofs.«125335_j11381663334735_2_alg».proof.Proof.Gen.Kernel.Launch
import proofs.«125335_j11381663334735_2_alg».proof.Proof.Gen.Kernel.Points
import proofs.«125335_j11381663334735_2_alg».proof.Proof.Gen.Kernel.Frame
import proofs.«125335_j11381663334735_2_alg».proof.Proof.Gen.KernelIdeal
import proofs.«125335_j11381663334735_2_alg».proof.Proof.Gen.KernelIdeal.Skeleton
import proofs.«125335_j11381663334735_2_alg».proof.Proof.Gen.KernelIdeal.Launch
import proofs.«125335_j11381663334735_2_alg».proof.Proof.Gen.KernelIdeal.Points
import proofs.«125335_j11381663334735_2_alg».proof.Proof.Gen.KernelIdeal.Frame
import proofs.«125335_j11381663334735_2_alg».proof.Proof.Gen.ReferenceIdeal
import proofs.«125335_j11381663334735_2_alg».proof.Proof.Gen.ReferenceIdeal.Run
import proofs.«125335_j11381663334735_2_alg».proof.Proof.Gen.ReferenceIdeal.Read
import proofs.«125335_j11381663334735_2_alg».proof.Proof.Gen.Pre_finite_inputs
import proofs.«125335_j11381663334735_2_alg».proof.Proof.Bridge
import proofs.«125335_j11381663334735_2_alg».proof.Proof.Finite
import Idealize.ShloMosaic.Adequacy
import Idealize.ShloMosaic.Init

set_option maxRecDepth 16384

noncomputable section

namespace Cert.Proof

open Idealize.ShloMosaic Idealize.SL.Sem

/-- The word-level kernel runs and keeps its arguments. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The idealized reference's run, its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments, finite by the precondition, the idealized kernel ends with the embeddings
    and the probabilities at their functions of the arguments, and the idealized reference with the same arrays. -/
theorem algebraic : Cert.algebraic_KernelIdeal_ReferenceIdeal := by
  intro m ρ m' ρ' hpre hagree
  refine ⟨fun c => Cert.Sage.KernelValue.embK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Sage.KernelValue.probK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    Cert.Sage.KernelValue.run m ρ, ?_⟩
  refine (θ_run (Cert.ReferenceIdeal.defs (F := Ideal)) _ _).mono (fun r h c => ?_)
    (Cert.ReferenceIdeal.Value.run (F := Ideal) m' ρ')
  obtain ⟨a0, a1, a2, a3, a4, a5, a6, a7, a8, a9, a10, a11, a12, a13⟩ := hagree c
  obtain ⟨r0, r2, r3, r4, r5⟩ := Cert.Sage.Finite.real_of_pre _ _ _ _ _ _ _ _ _ _ _ _ _ _ (hpre c)
  refine ⟨(h c).1.trans ?_, (h c).2.1.trans ?_, (h c).2.2⟩
  · rw [Cert.ReferenceIdeal.Read.val_main_v54_eq, a0, a1, a2, a3, a4, a5, a6, a7]
    exact (Cert.Sage.Bridge.emb_eq_ref _ _ _ _ _ _ _ _ r0 r2 r3 r4 r5).symm
  · rw [Cert.ReferenceIdeal.Read.val_main_v74_eq, a0, a1, a2, a3, a4, a5, a6, a7, a8, a9, a10, a11, a12, a13]
    exact (Cert.Sage.Bridge.prob_eq_ref _ _ _ _ _ _ _ _ _ _ _ _ _ _ r0 r2 r3 r4 r5).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
